-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x10 : Shape := ⟨2, ![100000, 10]⟩
abbrev S5000x10 : Shape := ⟨2, ![5000, 10]⟩
abbrev S1700000x10 : Shape := ⟨2, ![1700000, 10]⟩
abbrev S1x10 : Shape := ⟨2, ![1, 10]⟩
abbrev S512x10 : Shape := ⟨2, ![512, 10]⟩
abbrev S100000x1 : Shape := ⟨2, ![100000, 1]⟩
abbrev S512x1 : Shape := ⟨2, ![512, 1]⟩

abbrev nBuf : Space → Nat
  | .hbm => 145
  | .vmem => 40
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x1, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x1, .f32⟩
  | 103 => ⟨S1700000x128, .f32⟩
  | 104 => ⟨S1700000x128, .f32⟩
  | 105 => ⟨S_, .f32⟩
  | 106 => ⟨S100000x128, .f32⟩
  | 107 => ⟨S1700000x1, .i32⟩
  | 108 => ⟨S100000x128, .f32⟩
  | 109 => ⟨S1x128, .f32⟩
  | 110 => ⟨S100000x128, .f32⟩
  | 111 => ⟨S100000x10, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x10, .f32⟩
  | 121 => ⟨S1700000x1, .f32⟩
  | 122 => ⟨S1700000x10, .f32⟩
  | 123 => ⟨S1700000x10, .f32⟩
  | 124 => ⟨S_, .f32⟩
  | 125 => ⟨S100000x10, .f32⟩
  | 126 => ⟨S1700000x1, .i32⟩
  | 127 => ⟨S100000x10, .f32⟩
  | _ => ⟨S100000x128, .f32⟩

abbrev hbmTy0_1 (i : Nat) : BufTy := match i % 128 with
  | 0 => ⟨S1x10, .f32⟩
  | 1 => ⟨S100000x10, .f32⟩
  | 2 => ⟨S_, .f32⟩
  | 3 => ⟨S512x10, .f32⟩
  | 4 => ⟨S100000x1, .i32⟩
  | 5 => ⟨S512x10, .f32⟩
  | 6 => ⟨S_, .f32⟩
  | 7 => ⟨S100000x1, .f32⟩
  | 8 => ⟨S_, .f32⟩
  | 9 => ⟨S512x1, .f32⟩
  | 10 => ⟨S100000x1, .i32⟩
  | 11 => ⟨S512x1, .f32⟩
  | 12 => ⟨S_, .f32⟩
  | 13 => ⟨S512x1, .f32⟩
  | 14 => ⟨S512x1, .f32⟩
  | 15 => ⟨S512x10, .f32⟩
  | 16 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x10, .f32⟩
  | .local _ .vmem, ⟨33, _⟩ => ⟨S5000x10, .f32⟩
  | .local _ .vmem, ⟨34, _⟩ => ⟨S5000x10, .f32⟩
  | .local _ .vmem, ⟨35, _⟩ => ⟨S5000x10, .f32⟩
  | .local _ .vmem, ⟨36, _⟩ => ⟨S5000x10, .f32⟩
  | .local _ .vmem, ⟨37, _⟩ => ⟨S1x10, .f32⟩
  | .local _ .vmem, ⟨38, _⟩ => ⟨S5000x10, .f32⟩
  | .local _ .vmem, ⟨39, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_16 : Ref sig .tc := ⟨.hbm, 112, rfl⟩
abbrev main_v81 : Ref sig .tc := ⟨.hbm, 113, rfl⟩
abbrev main_v82 : Ref sig .tc := ⟨.hbm, 114, rfl⟩
abbrev main_c_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_18 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_19 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_cst_20 : Ref sig .tc := ⟨.hbm, 134, rfl⟩
abbrev main_v99 : Ref sig .tc := ⟨.hbm, 135, rfl⟩
abbrev main_cst_21 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_22 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x10 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x10 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x10 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x10_S128x10_0_0 : ∀ a, (![0, 0] : Fin 2 → Nat) a + S128x10.size a ≤ S128x10.size a
  h_S128x10 : 0 < S128x10.numel
  inb_S5000x10_S5000x10_0_0 : ∀ a, (![0, 0] : Fin 2 → Nat) a + S5000x10.size a ≤ S5000x10.size a
  h_S5000x10 : 0 < S5000x10.numel
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  shapeCasts_S10_S1x10 : S10.ShapeCasts S1x10
  shapeCasts_S5000x10_S5000x10 : S5000x10.ShapeCasts S5000x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  bcast_S_S512x10 : S_.BroadcastsInDim S512x10 (![] : Fin 0 → Fin S512x10.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  scatter_S512x10_S100000x1_S100000x10_1_0_0_1_wf : ScatterDims.WF S512x10 S100000x1 S100000x10 [1] [0] [0] 1
  scatter_S512x1_S100000x1_S100000x1_1_0_0_1_wf : ScatterDims.WF S512x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x10.size a ≤ S100000x10.size a
  hwx6_2 : ∀ i : grid6.Coords, EltTy.bits .f32 = 32 ∨ (Rect.block (s := S100000x10) S5000x10.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x10.size a ≤ S100000x10.size a
  hwx7_0 : ∀ i : grid7.Coords, EltTy.bits .f32 = 32 ∨ (Rect.block (s := S100000x10) S5000x10.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x10.size a ≤ S1x10.size a
  hwx7_1 : ∀ i : grid7.Coords, EltTy.bits .f32 = 32 ∨ (Rect.block (s := S1x10) S1x10.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x10.size a ≤ S100000x10.size a
  hwx7_2 : ∀ i : grid7.Coords, EltTy.bits .f32 = 32 ∨ (Rect.block (s := S100000x10) S5000x10.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf
def scatter_S512x10_S100000x1_S100000x10_1_0_0_1 : ScatterDims S512x10 S100000x1 S100000x10 where
  updateWindowDims := [1]
  insertedWindowDims := [0]
  scatterDimsToOperandDims := [0]
  indexVectorDim := 1
  wf := scatter_S512x10_S100000x1_S100000x10_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S5000x10.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v93) S5000x10.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v94) S1x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v95) S5000x10.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1700000x10 : Shape := ⟨2, ![1700000, 10]⟩
abbrev S1x10 : Shape := ⟨2, ![1, 10]⟩
abbrev S512x10 : Shape := ⟨2, ![512, 10]⟩
abbrev S100000x1 : Shape := ⟨2, ![100000, 1]⟩
abbrev S512x1 : Shape := ⟨2, ![512, 1]⟩

abbrev nBuf : Space → Nat
  | .hbm => 158
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S100000x128, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x128, .f32⟩
  | 64 => ⟨S1700000x1, .f32⟩
  | 65 => ⟨S1700000x128, .f32⟩
  | 66 => ⟨S1700000x128, .f32⟩
  | 67 => ⟨S_, .f32⟩
  | 68 => ⟨S100000x128, .f32⟩
  | 69 => ⟨S1700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x128, .f32⟩
  | 87 => ⟨S1700000x1, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x10, .f32⟩
  | 124 => ⟨S_, .i32⟩
  | 125 => ⟨S1700000, .i32⟩
  | 126 => ⟨S1700000, .i1⟩
  | 127 => ⟨S_, .i32⟩
  | _ => ⟨S100000x128, .f32⟩

abbrev hbmTy0_1 (i : Nat) : BufTy := match i % 128 with
  | 0 => ⟨S1700000, .i32⟩
  | 1 => ⟨S1700000, .i32⟩
  | 2 => ⟨S1700000, .i32⟩
  | 3 => ⟨S1700000x1, .i32⟩
  | 4 => ⟨S1700000x10, .f32⟩
  | 5 => ⟨S1700000x1, .f32⟩
  | 6 => ⟨S1700000x10, .f32⟩
  | 7 => ⟨S1700000x10, .f32⟩
  | 8 => ⟨S_, .f32⟩
  | 9 => ⟨S100000x10, .f32⟩
  | 10 => ⟨S1700000x1, .i32⟩
  | 11 => ⟨S100000x10, .f32⟩
  | 12 => ⟨S1x10, .f32⟩
  | 13 => ⟨S100000x10, .f32⟩
  | 14 => ⟨S100000x10, .f32⟩
  | 15 => ⟨S_, .f32⟩
  | 16 => ⟨S512x10, .f32⟩
  | 17 => ⟨S100000x1, .i32⟩
  | 18 => ⟨S512x10, .f32⟩
  | 19 => ⟨S_, .f32⟩
  | 20 => ⟨S100000x1, .f32⟩
  | 21 => ⟨S_, .f32⟩
  | 22 => ⟨S512x1, .f32⟩
  | 23 => ⟨S100000x1, .i32⟩
  | 24 => ⟨S512x1, .f32⟩
  | 25 => ⟨S_, .f32⟩
  | 26 => ⟨S512x1, .f32⟩
  | 27 => ⟨S512x1, .f32⟩
  | 28 => ⟨S512x10, .f32⟩
  | 29 => ⟨S512x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_v86 : Ref sig .tc := ⟨.hbm, 123, rfl⟩
abbrev main_c_16 : Ref sig .tc := ⟨.hbm, 124, rfl⟩
abbrev main_v87 : Ref sig .tc := ⟨.hbm, 125, rfl⟩
abbrev main_v88 : Ref sig .tc := ⟨.hbm, 126, rfl⟩
abbrev main_c_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_18 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_19 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_20 : Ref sig .tc := ⟨.hbm, 147, rfl⟩
abbrev main_v106 : Ref sig .tc := ⟨.hbm, 148, rfl⟩
abbrev main_cst_21 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_cst_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x10_0_1 : S1700000x1.BroadcastsInDim S1700000x10 (![0, 1] : Fin 2 → Fin S1700000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S_S512x10 : S_.BroadcastsInDim S512x10 (![] : Fin 0 → Fin S512x10.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S512x1 : S_.BroadcastsInDim S512x1 (![] : Fin 0 → Fin S512x1.rank)
  bcast_S512x1_S512x10_0_1 : S512x1.BroadcastsInDim S512x10 (![0, 1] : Fin 2 → Fin S512x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []
  gather_S100000x10_S1700000x1_S1700000x10_1_0_n_n_0_1_110_wf : GatherDims.WF S100000x10 S1700000x1 S1700000x10 [1] [0] [] [0] [] 1 ![1, 10]
  scatter_S100000x10_S1700000x1_S1700000x10_1_0_0_1_wf : ScatterDims.WF S100000x10 S1700000x1 S1700000x10 [1] [0] [0] 1
  scatter_S512x10_S100000x1_S100000x10_1_0_0_1_wf : ScatterDims.WF S512x10 S100000x1 S100000x10 [1] [0] [0] 1
  scatter_S512x1_S100000x1_S100000x1_1_0_0_1_wf : ScatterDims.WF S512x1 S100000x1 S100000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf
def gather_S100000x10_S1700000x1_S1700000x10_1_0_n_n_0_1_110 : GatherDims S100000x10 S1700000x1 S1700000x10 where
  offsetDims := [1]
  collapsedSliceDims := [0]
  operandBatchingDims := []
  startIndicesBatchingDims := []
  startIndexMap := [0]
  indexVectorDim := 1
  sliceSizes := ![1, 10]
  wf := gather_S100000x10_S1700000x1_S1700000x10_1_0_n_n_0_1_110_wf
def scatter_S100000x10_S1700000x1_S1700000x10_1_0_0_1 : ScatterDims S100000x10 S1700000x1 S1700000x10 where
  updateWindowDims := [1]
  insertedWindowDims := [0]
  scatterDimsToOperandDims := [0]
  indexVectorDim := 1
  wf := scatter_S100000x10_S1700000x1_S1700000x10_1_0_0_1_wf
def scatter_S512x10_S100000x1_S100000x10_1_0_0_1 : ScatterDims S512x10 S100000x1 S100000x10 where
  updateWindowDims := [1]
  insertedWindowDims := [0]
  scatterDimsToOperandDims := [0]
  indexVectorDim := 1
  wf := scatter_S512x10_S100000x1_S100000x10_1_0_0_1_wf
def scatter_S512x1_S100000x1_S100000x1_1_0_0_1 : ScatterDims S512x1 S100000x1 S100000x1 where
  updateWindowDims := [1]
  insertedWindowDims := [0]
  scatterDimsToOperandDims := [0]
  indexVectorDim := 1
  wf := scatter_S512x1_S100000x1_S100000x1_1_0_0_1_wf

class Facts : Prop extends Facts₀ where

variable [Facts]
-- ==== Proof.RunValue.lean ====
/-
  The idealized kernel's run with its result named.

  @main is sixteen segments: eight stretches of host operations and eight grids of blocks.  The buffer contents
  at each boundary are a fold from the launch memory; the last boundary's contents are `W16`.  Every weakly fair
  execution ends with each unscoped buffer at `W16`, so in particular the returned buffer holds `W16` read at
  it, and the eleven argument arrays hold what they were launched with.
-/
import proofs.«103530_j24687472017556_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the returned buffer ends at the last
    boundary's contents read at it, and each argument array ends as launched. -/
theorem run : θ_run defs (onTc (τ := τ) (main (F := F))) ⟨m, fun _ => 0, ρ⟩ (fun r => ∀ c : Dev nD,
      r.2.mem ((c.tc : Thread nD τ).loc main_v106) = W16 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v106 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c)⟩)

end Cert.KernelIdeal.RunValue

end
-- ==== Proof.HostStretches.lean ====
/-
  The host stretches of the idealized kernel's @main, read at the buffers later segments use.

  Between its grids the kernel runs the same whole-array operations as the reference: before the first grid the source
  and target index of every edge and self-loop and the symmetric normalisation; after each product grid the message
  passing (a gather of source rows, the scaling, a scatter-add into target rows) and the re-laying of the bias vector;
  after the last grid the pooling.  Each lemma runs one stretch from an arbitrary valuation: given what the stretch's
  inputs hold, its output holds the reference's stage of the same name.  The operations are never opened — the two
  sides are the same operations applied to equal operands — so everything here holds for any float type.
-/
import proofs.«103530_j24687472017556_1_alg».proof.Proof.Gen.KernelIdeal.Launch
import proofs.«103530_j24687472017556_1_alg».proof.Proof.RefReadP

set_option maxRecDepth 16384

noncomputable section

namespace Cert.KernelIdeal.HostStretches

open Cert.KernelIdeal Cert.KernelIdeal.Gen
open Idealize.ShloMosaic Idealize.ShloMosaic.TcCoe Idealize.SL.Sem Idealize.ShloMosaic.StableHlo
open Cert.ReferenceIdeal.ReadP

variable {F : FTy → Type} [FloatOps F]

/-! ## Before the first grid -/

set_option maxHeartbeats 4000000 in
theorem pre0_v3 (Wa : Valuation τ sig (Elt F)) :
    StableHlo.after hostOps0 Wa (Proc.devRef .tc main_v3) = val_main_v3 (F := F) (Wa (Proc.devRef .tc main_arg1)) := by
  simp only [hostOps0]
  after_results
  rfl

set_option maxHeartbeats 4000000 in
theorem pre0_v6 (Wa : Valuation τ sig (Elt F)) :
    StableHlo.after hostOps0 Wa (Proc.devRef .tc main_v6) = val_main_v6 (F := F) (Wa (Proc.devRef .tc main_arg1)) := by
  simp only [hostOps0]
  after_results
  rfl

set_option maxHeartbeats 4000000 in
theorem pre0_v12 (Wa : Valuation τ sig (Elt F)) :
    StableHlo.after hostOps0 Wa (Proc.devRef .tc main_v12) = val_main_v12 (F := F) (Wa (Proc.devRef .tc main_arg1)) := by
  simp only [hostOps0]
  after_results
  rfl

set_option maxHeartbeats 4000000 in
theorem pre0_v15 (Wa : Valuation τ sig (Elt F)) :
    StableHlo.after hostOps0 Wa (Proc.devRef .tc main_v15) = val_main_v15 (F := F) (Wa (Proc.devRef .tc main_arg1)) := by
  simp only [hostOps0]
  after_results
  rfl

set_option maxHeartbeats 4000000 in
theorem pre0_cst_3 (Wa : Valuation τ sig (Elt F)) :
    StableHlo.after hostOps0 Wa (Proc.devRef .tc main_cst_3) = val_main_cst_3 (F := F) := by
  simp only [hostOps0]
  after_results
  rfl

set_option maxHeartbeats 4000000 in
/-- The inverse square root of the degree where the degree is positive, zero elsewhere. -/
theorem pre1_v16 (Wb : Valuation τ sig (Elt F)) (x1 : (⟨S2x1600000, .i32⟩ : BufTy).Contents (Elt F))
    (h12 : Wb (Proc.devRef .tc main_v12) = val_main_v12 (F := F) x1)
    (h15 : Wb (Proc.devRef .tc main_v15) = val_main_v15 (F := F) x1)
    (hc : Wb (Proc.devRef .tc main_cst_3) = val_main_cst_3 (F := F)) :
    StableHlo.after hostOps0_1 Wb (Proc.devRef .tc main_v16) = val_main_v16 (F := F) x1 := by
  simp only [hostOps0_1]
  after_results
  rw [h12, h15, hc]
  rfl

set_option maxHeartbeats 4000000 in
/-- The normalisation of every edge and self-loop: that quantity at its source times that quantity at its target. -/
theorem pre2_v31 (Wc : Valuation τ sig (Elt F)) (x1 : (⟨S2x1600000, .i32⟩ : BufTy).Contents (Elt F))
    (h16 : Wc (Proc.devRef .tc main_v16) = val_main_v16 (F := F) x1)
    (h3 : Wc (Proc.devRef .tc main_v3) = val_main_v3 (F := F) x1)
    (h6 : Wc (Proc.devRef .tc main_v6) = val_main_v6 (F := F) x1) :
    StableHlo.after hostOps0_2 Wc (Proc.devRef .tc main_v31) = val_main_v31 (F := F) x1 := by
  simp only [hostOps0_2]
  after_results
  rw [h16, h3, h6]
  rfl

/-! ## After each product grid -/

set_option maxHeartbeats 4000000 in
/-- Layer 1's message passing: every edge gathers its source row of the product, scales it by the edge's normalisation,
    and the rows are summed into their target rows. -/
theorem msg1_out (Wx : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F))
    (h : Wx (Proc.devRef .tc main_v32) = val_main_v32 (F := F) x0 x3)
    (h3 : Wx (Proc.devRef .tc main_v3) = val_main_v3 (F := F) x1)
    (h6 : Wx (Proc.devRef .tc main_v6) = val_main_v6 (F := F) x1)
    (h31 : Wx (Proc.devRef .tc main_v31) = val_main_v31 (F := F) x1) :
    StableHlo.after hostOps1 Wx (Proc.devRef .tc main_v45) = val_main_v45 (F := F) x0 x1 x3 := by
  simp only [hostOps1]
  after_results
  rw [h, h3, h6, h31]
  rfl

/-- Layer 1's bias vector re-laid as one row. -/
theorem msg1_row (Wx : Valuation τ sig (Elt F)) (x4 : (⟨S128, .f32⟩ : BufTy).Contents (Elt F))
    (hb : Wx (Proc.devRef .tc main_arg4) = x4) :
    StableHlo.after hostOps1 Wx (Proc.devRef .tc main_v46) = shapeCast S1x128 x4 shapeCasts_S128_S1x128 := by
  simp only [hostOps1]
  after_results
  rw [hb]
  rfl

set_option maxHeartbeats 4000000 in
/-- Layer 2's message passing: every edge gathers its source row of the product, scales it by the edge's normalisation,
    and the rows are summed into their target rows. -/
theorem msg2_out (Wx : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F))
    (h : Wx (Proc.devRef .tc main_v48) = val_main_v50 (F := F) x0 x1 x3 x4 x5)
    (h3 : Wx (Proc.devRef .tc main_v3) = val_main_v3 (F := F) x1)
    (h6 : Wx (Proc.devRef .tc main_v6) = val_main_v6 (F := F) x1)
    (h31 : Wx (Proc.devRef .tc main_v31) = val_main_v31 (F := F) x1) :
    StableHlo.after hostOps3 Wx (Proc.devRef .tc main_v61) = val_main_v63 (F := F) x0 x1 x3 x4 x5 := by
  simp only [hostOps3]
  after_results
  rw [h, h3, h6, h31]
  rfl

/-- Layer 2's bias vector re-laid as one row. -/
theorem msg2_row (Wx : Valuation τ sig (Elt F)) (x6 : (⟨S128, .f32⟩ : BufTy).Contents (Elt F))
    (hb : Wx (Proc.devRef .tc main_arg6) = x6) :
    StableHlo.after hostOps3 Wx (Proc.devRef .tc main_v62) = shapeCast S1x128 x6 shapeCasts_S128_S1x128 := by
  simp only [hostOps3]
  after_results
  rw [hb]
  rfl

set_option maxHeartbeats 4000000 in
/-- Layer 3's message passing: every edge gathers its source row of the product, scales it by the edge's normalisation,
    and the rows are summed into their target rows. -/
theorem msg3_out (Wx : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F))
    (h : Wx (Proc.devRef .tc main_v64) = val_main_v68 (F := F) x0 x1 x3 x4 x5 x6 x7)
    (h3 : Wx (Proc.devRef .tc main_v3) = val_main_v3 (F := F) x1)
    (h6 : Wx (Proc.devRef .tc main_v6) = val_main_v6 (F := F) x1)
    (h31 : Wx (Proc.devRef .tc main_v31) = val_main_v31 (F := F) x1) :
    StableHlo.after hostOps5 Wx (Proc.devRef .tc main_v77) = val_main_v81 (F := F) x0 x1 x3 x4 x5 x6 x7 := by
  simp only [hostOps5]
  after_results
  rw [h, h3, h6, h31]
  rfl

/-- Layer 3's bias vector re-laid as one row. -/
theorem msg3_row (Wx : Valuation τ sig (Elt F)) (x8 : (⟨S128, .f32⟩ : BufTy).Contents (Elt F))
    (hb : Wx (Proc.devRef .tc main_arg8) = x8) :
    StableHlo.after hostOps5 Wx (Proc.devRef .tc main_v78) = shapeCast S1x128 x8 shapeCasts_S128_S1x128 := by
  simp only [hostOps5]
  after_results
  rw [hb]
  rfl

set_option maxHeartbeats 4000000 in
/-- Layer 4's message passing: every edge gathers its source row of the product, scales it by the edge's normalisation,
    and the rows are summed into their target rows. -/
theorem msg4_out (Wx : Valuation τ sig (Elt F)) (x0 : (⟨S100000x128, .f32⟩ : BufTy).Contents (Elt F)) (x1 : (⟨S2x1600000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x10, .f32⟩ : BufTy).Contents (Elt F))
    (h : Wx (Proc.devRef .tc main_v80) = val_main_v86 (F := F) x0 x1 x3 x4 x5 x6 x7 x8 x9)
    (h3 : Wx (Proc.devRef .tc main_v3) = val_main_v3 (F := F) x1)
    (h6 : Wx (Proc.devRef .tc main_v6) = val_main_v6 (F := F) x1)
    (h31 : Wx (Proc.devRef .tc main_v31) = val_main_v31 (F := F) x1) :
    StableHlo.after hostOps7 Wx (Proc.devRef .tc main_v93) = val_main_v99 (F := F) x0 x1 x3 x4 x5 x6 x7 x8 x9 := by
  simp only [hostOps7]
  after_results
  rw [h, h3, h6, h31]
  rfl

/-- Layer 4's bias vector re-laid as one row. -/
theorem msg4_row (Wx : Valuation τ sig (Elt F)) (x10 : (⟨S10, .f32⟩ : BufTy).Contents (Elt F))
    (hb : Wx (Proc.devRef .tc main_arg10) = x10) :
    StableHlo.after hostOps7 Wx (Proc.devRef .tc main_v94) = shapeCast S1x10 x10 shapeCasts_S10_S1x10 := by
  simp only [hostOps7]
  after_results
  rw [hb]
  rfl

/-! ## After the last grid -/

set_option maxHeartbeats 4000000 in
/-- The pooling: the fourth layer's rows summed per graph, divided by the graph's node count, at least one. -/
theorem pool_out (Wx : Valuation τ sig (Elt F)) (x0 : (⟨S100000x128, .f32⟩ : BufTy).Contents (Elt F)) (x1 : (⟨S2x1600000, .i32⟩ : BufTy).Contents (Elt F)) (x2 : (⟨S100000, .i32⟩ : BufTy).Contents (Elt F)) (x3 : (⟨S128x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S128x128, .f32⟩ : BufTy).Contents (Elt F)) (x8 : (⟨S128, .f32⟩ : BufTy).Contents (Elt F)) (x9 : (⟨S128x10, .f32⟩ : BufTy).Contents (Elt F)) (x10 : (⟨S10, .f32⟩ : BufTy).Contents (Elt F))
    (h : Wx (Proc.devRef .tc main_v95) = val_main_v102 (F := F) x0 x1 x3 x4 x5 x6 x7 x8 x9 x10)
    (h2 : Wx (Proc.devRef .tc main_arg2) = x2) :
    StableHlo.after hostOps8 Wx (Proc.devRef .tc main_v106) = val_main_v113 (F := F) x0 x1 x2 x3 x4 x5 x6 x7 x8 x9 x10 := by
  simp only [hostOps8]
  after_results
  rw [h, h2]
  rfl

end Cert.KernelIdeal.HostStretches

end
-- ==== Proof.WalkKeep.lean ====
/-
  What survives every boundary of the idealized kernel's @main.

  Three index and scale arrays are computed once, before the first grid, from the edge list alone: the source index of
  every edge and self-loop (`main_v3`), the target index (`main_v6`), and the symmetric normalisation
  deg(source)^(-1/2) · deg(target)^(-1/2) (`main_v31`).  Every later layer reads them again, and no grid and no later host
  operation writes them; the same holds of each argument array up to the point where it is read.  So at every boundary
  from the first grid's entry on they hold what the reference's own stages of those names hold, as functions of the
  edge list.
-/
import proofs.«103530_j24687472017556_1_alg».proof.Proof.Gen.KernelIdeal.Frame
import proofs.«103530_j24687472017556_1_alg».proof.Proof.RefReadP
import proofs.«103530_j24687472017556_1_alg».proof.Proof.HostStretches

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo
open Idealize.ShloMosaic.Pipeline (Dat Cfg Window)

open Cert.ReferenceIdeal.ReadP

variable (m : (ℓ : Loc nD τ sig) → Buf (Elt Ideal) ℓ) (ρ : Dev nD → PrngReg) (c : Dev nD)

/-- A buffer that none of a stretch's operations writes keeps its contents across the stretch. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-- The kept buffers of a valuation: the two index arrays and the normalisation at the reference's stages, the
    arguments still to be read at their launch contents. -/
structure Kept (W : Valuation τ sig (Elt Ideal)) : Prop where
  v3 : W (Proc.devRef .tc main_v3) = val_main_v3 (F := Ideal) (m ((c : Thread nD τ).loc main_arg1))
  v6 : W (Proc.devRef .tc main_v6) = val_main_v6 (F := Ideal) (m ((c : Thread nD τ).loc main_arg1))
  v31 : W (Proc.devRef .tc main_v31) = val_main_v31 (F := Ideal) (m ((c : Thread nD τ).loc main_arg1))
  a2 : W (Proc.devRef .tc main_arg2) = m ((c : Thread nD τ).loc main_arg2)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)

/-! ## Before the first grid -/

/-- After the first stretch: the two index arrays, the comparison of the degree with zero, the inverse square root of
    the degree at least 1e-12, and the zero scalar. -/
theorem w1_v3 : W1 m ρ c (Proc.devRef .tc main_v3) = val_main_v3 (F := Ideal) (m ((c : Thread nD τ).loc main_arg1)) := HostStretches.pre0_v3 (W0 m ρ c)
theorem w1_v6 : W1 m ρ c (Proc.devRef .tc main_v6) = val_main_v6 (F := Ideal) (m ((c : Thread nD τ).loc main_arg1)) := HostStretches.pre0_v6 (W0 m ρ c)
theorem w1_v12 : W1 m ρ c (Proc.devRef .tc main_v12) = val_main_v12 (F := Ideal) (m ((c : Thread nD τ).loc main_arg1)) := HostStretches.pre0_v12 (W0 m ρ c)
theorem w1_v15 : W1 m ρ c (Proc.devRef .tc main_v15) = val_main_v15 (F := Ideal) (m ((c : Thread nD τ).loc main_arg1)) := HostStretches.pre0_v15 (W0 m ρ c)
theorem w1_cst_3 : W1 m ρ c (Proc.devRef .tc main_cst_3) = val_main_cst_3 (F := Ideal) := HostStretches.pre0_cst_3 (W0 m ρ c)

/-- After the second stretch the index arrays are untouched and the per-node factor is in place. -/
theorem w2_v3 : W2 m ρ c (Proc.devRef .tc main_v3) = val_main_v3 (F := Ideal) (m ((c : Thread nD τ).loc main_arg1)) :=
  (by host_keeps hostOps0_1 : W2 m ρ c (Proc.devRef .tc main_v3) = W1 m ρ c (Proc.devRef .tc main_v3)).trans (w1_v3 m ρ c)
theorem w2_v6 : W2 m ρ c (Proc.devRef .tc main_v6) = val_main_v6 (F := Ideal) (m ((c : Thread nD τ).loc main_arg1)) :=
  (by host_keeps hostOps0_1 : W2 m ρ c (Proc.devRef .tc main_v6) = W1 m ρ c (Proc.devRef .tc main_v6)).trans (w1_v6 m ρ c)
theorem w2_v16 : W2 m ρ c (Proc.devRef .tc main_v16) = val_main_v16 (F := Ideal) (m ((c : Thread nD τ).loc main_arg1)) :=
  HostStretches.pre1_v16 (W1 m ρ c) (m ((c : Thread nD τ).loc main_arg1)) (w1_v12 m ρ c) (w1_v15 m ρ c) (w1_cst_3 m ρ c)

/-- At the first grid's entry: the source indices, the target indices, the normalisation of every edge and self-loop. -/
theorem w3_v3 : W3 m ρ c (Proc.devRef .tc main_v3) = val_main_v3 (F := Ideal) (m ((c : Thread nD τ).loc main_arg1)) :=
  (by host_keeps hostOps0_2 : W3 m ρ c (Proc.devRef .tc main_v3) = W2 m ρ c (Proc.devRef .tc main_v3)).trans (w2_v3 m ρ c)
theorem w3_v6 : W3 m ρ c (Proc.devRef .tc main_v6) = val_main_v6 (F := Ideal) (m ((c : Thread nD τ).loc main_arg1)) :=
  (by host_keeps hostOps0_2 : W3 m ρ c (Proc.devRef .tc main_v6) = W2 m ρ c (Proc.devRef .tc main_v6)).trans (w2_v6 m ρ c)
theorem w3_v31 : W3 m ρ c (Proc.devRef .tc main_v31) = val_main_v31 (F := Ideal) (m ((c : Thread nD τ).loc main_arg1)) :=
  HostStretches.pre2_v31 (W2 m ρ c) (m ((c : Thread nD τ).loc main_arg1)) (w2_v16 m ρ c) (w2_v3 m ρ c) (w2_v6 m ρ c)

/-- An argument array is written by no host operation before the first grid. -/
theorem kept3 : Kept m c (W3 m ρ c) :=
  ⟨w3_v3 m ρ c, w3_v6 m ρ c, w3_v31 m ρ c,
   (by host_keeps hostOps0_2 : W3 m ρ c (Proc.devRef .tc main_arg2) = W2 m ρ c (Proc.devRef .tc main_arg2)).trans
     ((by host_keeps hostOps0_1 : W2 m ρ c (Proc.devRef .tc main_arg2) = W1 m ρ c (Proc.devRef .tc main_arg2)).trans
       (by host_keeps hostOps0 : W1 m ρ c (Proc.devRef .tc main_arg2) = W0 m ρ c (Proc.devRef .tc main_arg2))),
   (by host_keeps hostOps0_2 : W3 m ρ c (Proc.devRef .tc main_arg4) = W2 m ρ c (Proc.devRef .tc main_arg4)).trans
     ((by host_keeps hostOps0_1 : W2 m ρ c (Proc.devRef .tc main_arg4) = W1 m ρ c (Proc.devRef .tc main_arg4)).trans
       (by host_keeps hostOps0 : W1 m ρ c (Proc.devRef .tc main_arg4) = W0 m ρ c (Proc.devRef .tc main_arg4))),
   (by host_keeps hostOps0_2 : W3 m ρ c (Proc.devRef .tc main_arg5) = W2 m ρ c (Proc.devRef .tc main_arg5)).trans
     ((by host_keeps hostOps0_1 : W2 m ρ c (Proc.devRef .tc main_arg5) = W1 m ρ c (Proc.devRef .tc main_arg5)).trans
       (by host_keeps hostOps0 : W1 m ρ c (Proc.devRef .tc main_arg5) = W0 m ρ c (Proc.devRef .tc main_arg5))),
   (by host_keeps hostOps0_2 : W3 m ρ c (Proc.devRef .tc main_arg6) = W2 m ρ c (Proc.devRef .tc main_arg6)).trans
     ((by host_keeps hostOps0_1 : W2 m ρ c (Proc.devRef .tc main_arg6) = W1 m ρ c (Proc.devRef .tc main_arg6)).trans
       (by host_keeps hostOps0 : W1 m ρ c (Proc.devRef .tc main_arg6) = W0 m ρ c (Proc.devRef .tc main_arg6))),
   (by host_keeps hostOps0_2 : W3 m ρ c (Proc.devRef .tc main_arg7) = W2 m ρ c (Proc.devRef .tc main_arg7)).trans
     ((by host_keeps hostOps0_1 : W2 m ρ c (Proc.devRef .tc main_arg7) = W1 m ρ c (Proc.devRef .tc main_arg7)).trans
       (by host_keeps hostOps0 : W1 m ρ c (Proc.devRef .tc main_arg7) = W0 m ρ c (Proc.devRef .tc main_arg7))),
   (by host_keeps hostOps0_2 : W3 m ρ c (Proc.devRef .tc main_arg8) = W2 m ρ c (Proc.devRef .tc main_arg8)).trans
     ((by host_keeps hostOps0_1 : W2 m ρ c (Proc.devRef .tc main_arg8) = W1 m ρ c (Proc.devRef .tc main_arg8)).trans
       (by host_keeps hostOps0 : W1 m ρ c (Proc.devRef .tc main_arg8) = W0 m ρ c (Proc.devRef .tc main_arg8))),
   (by host_keeps hostOps0_2 : W3 m ρ c (Proc.devRef .tc main_arg9) = W2 m ρ c (Proc.devRef .tc main_arg9)).trans
     ((by host_keeps hostOps0_1 : W2 m ρ c (Proc.devRef .tc main_arg9) = W1 m ρ c (Proc.devRef .tc main_arg9)).trans
       (by host_keeps hostOps0 : W1 m ρ c (Proc.devRef .tc main_arg9) = W0 m ρ c (Proc.devRef .tc main_arg9))),
   (by host_keeps hostOps0_2 : W3 m ρ c (Proc.devRef .tc main_arg10) = W2 m ρ c (Proc.devRef .tc main_arg10)).trans
     ((by host_keeps hostOps0_1 : W2 m ρ c (Proc.devRef .tc main_arg10) = W1 m ρ c (Proc.devRef .tc main_arg10)).trans
       (by host_keeps hostOps0 : W1 m ρ c (Proc.devRef .tc main_arg10) = W0 m ρ c (Proc.devRef .tc main_arg10)))⟩

/-- The first grid's two operands, as launched. -/
theorem w3_arg0 : W3 m ρ c (Proc.devRef .tc main_arg0) = m ((c : Thread nD τ).loc main_arg0) :=
  (by host_keeps hostOps0_2 : W3 m ρ c (Proc.devRef .tc main_arg0) = W2 m ρ c (Proc.devRef .tc main_arg0)).trans
    ((by host_keeps hostOps0_1 : W2 m ρ c (Proc.devRef .tc main_arg0) = W1 m ρ c (Proc.devRef .tc main_arg0)).trans
      (by host_keeps hostOps0 : W1 m ρ c (Proc.devRef .tc main_arg0) = W0 m ρ c (Proc.devRef .tc main_arg0)))
theorem w3_arg3 : W3 m ρ c (Proc.devRef .tc main_arg3) = m ((c : Thread nD τ).loc main_arg3) :=
  (by host_keeps hostOps0_2 : W3 m ρ c (Proc.devRef .tc main_arg3) = W2 m ρ c (Proc.devRef .tc main_arg3)).trans
    ((by host_keeps hostOps0_1 : W2 m ρ c (Proc.devRef .tc main_arg3) = W1 m ρ c (Proc.devRef .tc main_arg3)).trans
      (by host_keeps hostOps0 : W1 m ρ c (Proc.devRef .tc main_arg3) = W0 m ρ c (Proc.devRef .tc main_arg3)))

/-! ## Across the grids and the later stretches -/

/-- Grid 0 writes only its own result array. -/
theorem kept4 : Kept m c (W4 m ρ c) :=
  have h := kept3 m ρ c
  ⟨(W4_of_ne m ρ c main_v3 (by decide)).trans h.v3,
   (W4_of_ne m ρ c main_v6 (by decide)).trans h.v6,
   (W4_of_ne m ρ c main_v31 (by decide)).trans h.v31,
   (W4_of_ne m ρ c main_arg2 (by decide)).trans h.a2,
   (W4_of_ne m ρ c main_arg4 (by decide)).trans h.a4,
   (W4_of_ne m ρ c main_arg5 (by decide)).trans h.a5,
   (W4_of_ne m ρ c main_arg6 (by decide)).trans h.a6,
   (W4_of_ne m ρ c main_arg7 (by decide)).trans h.a7,
   (W4_of_ne m ρ c main_arg8 (by decide)).trans h.a8,
   (W4_of_ne m ρ c main_arg9 (by decide)).trans h.a9,
   (W4_of_ne m ρ c main_arg10 (by decide)).trans h.a10⟩

/-- The host stretch before this boundary writes none of the kept buffers. -/
theorem kept5 : Kept m c (W5 m ρ c) :=
  have h := kept4 m ρ c
  ⟨(by host_keeps hostOps1 : W5 m ρ c (Proc.devRef .tc main_v3) = W4 m ρ c (Proc.devRef .tc main_v3)).trans h.v3,
   (by host_keeps hostOps1 : W5 m ρ c (Proc.devRef .tc main_v6) = W4 m ρ c (Proc.devRef .tc main_v6)).trans h.v6,
   (by host_keeps hostOps1 : W5 m ρ c (Proc.devRef .tc main_v31) = W4 m ρ c (Proc.devRef .tc main_v31)).trans h.v31,
   (by host_keeps hostOps1 : W5 m ρ c (Proc.devRef .tc main_arg2) = W4 m ρ c (Proc.devRef .tc main_arg2)).trans h.a2,
   (by host_keeps hostOps1 : W5 m ρ c (Proc.devRef .tc main_arg4) = W4 m ρ c (Proc.devRef .tc main_arg4)).trans h.a4,
   (by host_keeps hostOps1 : W5 m ρ c (Proc.devRef .tc main_arg5) = W4 m ρ c (Proc.devRef .tc main_arg5)).trans h.a5,
   (by host_keeps hostOps1 : W5 m ρ c (Proc.devRef .tc main_arg6) = W4 m ρ c (Proc.devRef .tc main_arg6)).trans h.a6,
   (by host_keeps hostOps1 : W5 m ρ c (Proc.devRef .tc main_arg7) = W4 m ρ c (Proc.devRef .tc main_arg7)).trans h.a7,
   (by host_keeps hostOps1 : W5 m ρ c (Proc.devRef .tc main_arg8) = W4 m ρ c (Proc.devRef .tc main_arg8)).trans h.a8,
   (by host_keeps hostOps1 : W5 m ρ c (Proc.devRef .tc main_arg9) = W4 m ρ c (Proc.devRef .tc main_arg9)).trans h.a9,
   (by host_keeps hostOps1 : W5 m ρ c (Proc.devRef .tc main_arg10) = W4 m ρ c (Proc.devRef .tc main_arg10)).trans h.a10⟩

/-- Grid 1 writes only its own result array. -/
theorem kept6 : Kept m c (W6 m ρ c) :=
  have h := kept5 m ρ c
  ⟨(W6_of_ne m ρ c main_v3 (by decide)).trans h.v3,
   (W6_of_ne m ρ c main_v6 (by decide)).trans h.v6,
   (W6_of_ne m ρ c main_v31 (by decide)).trans h.v31,
   (W6_of_ne m ρ c main_arg2 (by decide)).trans h.a2,
   (W6_of_ne m ρ c main_arg4 (by decide)).trans h.a4,
   (W6_of_ne m ρ c main_arg5 (by decide)).trans h.a5,
   (W6_of_ne m ρ c main_arg6 (by decide)).trans h.a6,
   (W6_of_ne m ρ c main_arg7 (by decide)).trans h.a7,
   (W6_of_ne m ρ c main_arg8 (by decide)).trans h.a8,
   (W6_of_ne m ρ c main_arg9 (by decide)).trans h.a9,
   (W6_of_ne m ρ c main_arg10 (by decide)).trans h.a10⟩

/-- Grid 2 writes only its own result array. -/
theorem kept7 : Kept m c (W7 m ρ c) :=
  have h := kept6 m ρ c
  ⟨(W7_of_ne m ρ c main_v3 (by decide)).trans h.v3,
   (W7_of_ne m ρ c main_v6 (by decide)).trans h.v6,
   (W7_of_ne m ρ c main_v31 (by decide)).trans h.v31,
   (W7_of_ne m ρ c main_arg2 (by decide)).trans h.a2,
   (W7_of_ne m ρ c main_arg4 (by decide)).trans h.a4,
   ((W7_arr m ρ c 1).trans (((dat2 (V6 m ρ) c).arrAt_in 1 rfl _).trans (A_eq2 (V6 m ρ) c 1))).trans h.a5,
   (W7_of_ne m ρ c main_arg6 (by decide)).trans h.a6,
   (W7_of_ne m ρ c main_arg7 (by decide)).trans h.a7,
   (W7_of_ne m ρ c main_arg8 (by decide)).trans h.a8,
   (W7_of_ne m ρ c main_arg9 (by decide)).trans h.a9,
   (W7_of_ne m ρ c main_arg10 (by decide)).trans h.a10⟩

/-- The host stretch before this boundary writes none of the kept buffers. -/
theorem kept8 : Kept m c (W8 m ρ c) :=
  have h := kept7 m ρ c
  ⟨(by host_keeps hostOps3 : W8 m ρ c (Proc.devRef .tc main_v3) = W7 m ρ c (Proc.devRef .tc main_v3)).trans h.v3,
   (by host_keeps hostOps3 : W8 m ρ c (Proc.devRef .tc main_v6) = W7 m ρ c (Proc.devRef .tc main_v6)).trans h.v6,
   (by host_keeps hostOps3 : W8 m ρ c (Proc.devRef .tc main_v31) = W7 m ρ c (Proc.devRef .tc main_v31)).trans h.v31,
   (by host_keeps hostOps3 : W8 m ρ c (Proc.devRef .tc main_arg2) = W7 m ρ c (Proc.devRef .tc main_arg2)).trans h.a2,
   (by host_keeps hostOps3 : W8 m ρ c (Proc.devRef .tc main_arg4) = W7 m ρ c (Proc.devRef .tc main_arg4)).trans h.a4,
   (by host_keeps hostOps3 : W8 m ρ c (Proc.devRef .tc main_arg5) = W7 m ρ c (Proc.devRef .tc main_arg5)).trans h.a5,
   (by host_keeps hostOps3 : W8 m ρ c (Proc.devRef .tc main_arg6) = W7 m ρ c (Proc.devRef .tc main_arg6)).trans h.a6,
   (by host_keeps hostOps3 : W8 m ρ c (Proc.devRef .tc main_arg7) = W7 m ρ c (Proc.devRef .tc main_arg7)).trans h.a7,
   (by host_keeps hostOps3 : W8 m ρ c (Proc.devRef .tc main_arg8) = W7 m ρ c (Proc.devRef .tc main_arg8)).trans h.a8,
   (by host_keeps hostOps3 : W8 m ρ c (Proc.devRef .tc main_arg9) = W7 m ρ c (Proc.devRef .tc main_arg9)).trans h.a9,
   (by host_keeps hostOps3 : W8 m ρ c (Proc.devRef .tc main_arg10) = W7 m ρ c (Proc.devRef .tc main_arg10)).trans h.a10⟩

/-- Grid 3 writes only its own result array. -/
theorem kept9 : Kept m c (W9 m ρ c) :=
  have h := kept8 m ρ c
  ⟨(W9_of_ne m ρ c main_v3 (by decide)).trans h.v3,
   (W9_of_ne m ρ c main_v6 (by decide)).trans h.v6,
   (W9_of_ne m ρ c main_v31 (by decide)).trans h.v31,
   (W9_of_ne m ρ c main_arg2 (by decide)).trans h.a2,
   (W9_of_ne m ρ c main_arg4 (by decide)).trans h.a4,
   (W9_of_ne m ρ c main_arg5 (by decide)).trans h.a5,
   (W9_of_ne m ρ c main_arg6 (by decide)).trans h.a6,
   (W9_of_ne m ρ c main_arg7 (by decide)).trans h.a7,
   (W9_of_ne m ρ c main_arg8 (by decide)).trans h.a8,
   (W9_of_ne m ρ c main_arg9 (by decide)).trans h.a9,
   (W9_of_ne m ρ c main_arg10 (by decide)).trans h.a10⟩

/-- Grid 4 writes only its own result array. -/
theorem kept10 : Kept m c (W10 m ρ c) :=
  have h := kept9 m ρ c
  ⟨(W10_of_ne m ρ c main_v3 (by decide)).trans h.v3,
   (W10_of_ne m ρ c main_v6 (by decide)).trans h.v6,
   (W10_of_ne m ρ c main_v31 (by decide)).trans h.v31,
   (W10_of_ne m ρ c main_arg2 (by decide)).trans h.a2,
   (W10_of_ne m ρ c main_arg4 (by decide)).trans h.a4,
   (W10_of_ne m ρ c main_arg5 (by decide)).trans h.a5,
   (W10_of_ne m ρ c main_arg6 (by decide)).trans h.a6,
   ((W10_arr m ρ c 1).trans (((dat4 (V9 m ρ) c).arrAt_in 1 rfl _).trans (A_eq4 (V9 m ρ) c 1))).trans h.a7,
   (W10_of_ne m ρ c main_arg8 (by decide)).trans h.a8,
   (W10_of_ne m ρ c main_arg9 (by decide)).trans h.a9,
   (W10_of_ne m ρ c main_arg10 (by decide)).trans h.a10⟩

/-- The host stretch before this boundary writes none of the kept buffers. -/
theorem kept11 : Kept m c (W11 m ρ c) :=
  have h := kept10 m ρ c
  ⟨(by host_keeps hostOps5 : W11 m ρ c (Proc.devRef .tc main_v3) = W10 m ρ c (Proc.devRef .tc main_v3)).trans h.v3,
   (by host_keeps hostOps5 : W11 m ρ c (Proc.devRef .tc main_v6) = W10 m ρ c (Proc.devRef .tc main_v6)).trans h.v6,
   (by host_keeps hostOps5 : W11 m ρ c (Proc.devRef .tc main_v31) = W10 m ρ c (Proc.devRef .tc main_v31)).trans h.v31,
   (by host_keeps hostOps5 : W11 m ρ c (Proc.devRef .tc main_arg2) = W10 m ρ c (Proc.devRef .tc main_arg2)).trans h.a2,
   (by host_keeps hostOps5 : W11 m ρ c (Proc.devRef .tc main_arg4) = W10 m ρ c (Proc.devRef .tc main_arg4)).trans h.a4,
   (by host_keeps hostOps5 : W11 m ρ c (Proc.devRef .tc main_arg5) = W10 m ρ c (Proc.devRef .tc main_arg5)).trans h.a5,
   (by host_keeps hostOps5 : W11 m ρ c (Proc.devRef .tc main_arg6) = W10 m ρ c (Proc.devRef .tc main_arg6)).trans h.a6,
   (by host_keeps hostOps5 : W11 m ρ c (Proc.devRef .tc main_arg7) = W10 m ρ c (Proc.devRef .tc main_arg7)).trans h.a7,
   (by host_keeps hostOps5 : W11 m ρ c (Proc.devRef .tc main_arg8) = W10 m ρ c (Proc.devRef .tc main_arg8)).trans h.a8,
   (by host_keeps hostOps5 : W11 m ρ c (Proc.devRef .tc main_arg9) = W10 m ρ c (Proc.devRef .tc main_arg9)).trans h.a9,
   (by host_keeps hostOps5 : W11 m ρ c (Proc.devRef .tc main_arg10) = W10 m ρ c (Proc.devRef .tc main_arg10)).trans h.a10⟩

/-- Grid 5 writes only its own result array. -/
theorem kept12 : Kept m c (W12 m ρ c) :=
  have h := kept11 m ρ c
  ⟨(W12_of_ne m ρ c main_v3 (by decide)).trans h.v3,
   (W12_of_ne m ρ c main_v6 (by decide)).trans h.v6,
   (W12_of_ne m ρ c main_v31 (by decide)).trans h.v31,
   (W12_of_ne m ρ c main_arg2 (by decide)).trans h.a2,
   (W12_of_ne m ρ c main_arg4 (by decide)).trans h.a4,
   (W12_of_ne m ρ c main_arg5 (by decide)).trans h.a5,
   (W12_of_ne m ρ c main_arg6 (by decide)).trans h.a6,
   (W12_of_ne m ρ c main_arg7 (by decide)).trans h.a7,
   (W12_of_ne m ρ c main_arg8 (by decide)).trans h.a8,
   (W12_of_ne m ρ c main_arg9 (by decide)).trans h.a9,
   (W12_of_ne m ρ c main_arg10 (by decide)).trans h.a10⟩

/-- Grid 6 writes only its own result array. -/
theorem kept13 : Kept m c (W13 m ρ c) :=
  have h := kept12 m ρ c
  ⟨(W13_of_ne m ρ c main_v3 (by decide)).trans h.v3,
   (W13_of_ne m ρ c main_v6 (by decide)).trans h.v6,
   (W13_of_ne m ρ c main_v31 (by decide)).trans h.v31,
   (W13_of_ne m ρ c main_arg2 (by decide)).trans h.a2,
   (W13_of_ne m ρ c main_arg4 (by decide)).trans h.a4,
   (W13_of_ne m ρ c main_arg5 (by decide)).trans h.a5,
   (W13_of_ne m ρ c main_arg6 (by decide)).trans h.a6,
   (W13_of_ne m ρ c main_arg7 (by decide)).trans h.a7,
   (W13_of_ne m ρ c main_arg8 (by decide)).trans h.a8,
   ((W13_arr m ρ c 1).trans (((dat6 (V12 m ρ) c).arrAt_in 1 rfl _).trans (A_eq6 (V12 m ρ) c 1))).trans h.a9,
   (W13_of_ne m ρ c main_arg10 (by decide)).trans h.a10⟩

/-- The host stretch before this boundary writes none of the kept buffers. -/
theorem kept14 : Kept m c (W14 m ρ c) :=
  have h := kept13 m ρ c
  ⟨(by host_keeps hostOps7 : W14 m ρ c (Proc.devRef .tc main_v3) = W13 m ρ c (Proc.devRef .tc main_v3)).trans h.v3,
   (by host_keeps hostOps7 : W14 m ρ c (Proc.devRef .tc main_v6) = W13 m ρ c (Proc.devRef .tc main_v6)).trans h.v6,
   (by host_keeps hostOps7 : W14 m ρ c (Proc.devRef .tc main_v31) = W13 m ρ c (Proc.devRef .tc main_v31)).trans h.v31,
   (by host_keeps hostOps7 : W14 m ρ c (Proc.devRef .tc main_arg2) = W13 m ρ c (Proc.devRef .tc main_arg2)).trans h.a2,
   (by host_keeps hostOps7 : W14 m ρ c (Proc.devRef .tc main_arg4) = W13 m ρ c (Proc.devRef .tc main_arg4)).trans h.a4,
   (by host_keeps hostOps7 : W14 m ρ c (Proc.devRef .tc main_arg5) = W13 m ρ c (Proc.devRef .tc main_arg5)).trans h.a5,
   (by host_keeps hostOps7 : W14 m ρ c (Proc.devRef .tc main_arg6) = W13 m ρ c (Proc.devRef .tc main_arg6)).trans h.a6,
   (by host_keeps hostOps7 : W14 m ρ c (Proc.devRef .tc main_arg7) = W13 m ρ c (Proc.devRef .tc main_arg7)).trans h.a7,
   (by host_keeps hostOps7 : W14 m ρ c (Proc.devRef .tc main_arg8) = W13 m ρ c (Proc.devRef .tc main_arg8)).trans h.a8,
   (by host_keeps hostOps7 : W14 m ρ c (Proc.devRef .tc main_arg9) = W13 m ρ c (Proc.devRef .tc main_arg9)).trans h.a9,
   (by host_keeps hostOps7 : W14 m ρ c (Proc.devRef .tc main_arg10) = W13 m ρ c (Proc.devRef .tc main_arg10)).trans h.a10⟩

/-- Grid 7 writes only its own result array. -/
theorem kept15 : Kept m c (W15 m ρ c) :=
  have h := kept14 m ρ c
  ⟨(W15_of_ne m ρ c main_v3 (by decide)).trans h.v3,
   (W15_of_ne m ρ c main_v6 (by decide)).trans h.v6,
   (W15_of_ne m ρ c main_v31 (by decide)).trans h.v31,
   (W15_of_ne m ρ c main_arg2 (by decide)).trans h.a2,
   (W15_of_ne m ρ c main_arg4 (by decide)).trans h.a4,
   (W15_of_ne m ρ c main_arg5 (by decide)).trans h.a5,
   (W15_of_ne m ρ c main_arg6 (by decide)).trans h.a6,
   (W15_of_ne m ρ c main_arg7 (by decide)).trans h.a7,
   (W15_of_ne m ρ c main_arg8 (by decide)).trans h.a8,
   (W15_of_ne m ρ c main_arg9 (by decide)).trans h.a9,
   (W15_of_ne m ρ c main_arg10 (by decide)).trans h.a10⟩

end Cert.KernelIdeal.Walk

end
-- ==== Proof.LibMatmulRows.lean ====
/-
  A matrix product into a zero accumulator, read at one row and one column.

  For an `M × K` matrix `l` and a `K × N` matrix `r` contracted along the one shared axis, the entry of
  `l · r` at row `p` and column `j` is `∑ k, l[p,k] · r[k,j]`.  At the exact values the product unit's result
  is the accumulator plus the sum over the contraction index of the operands' products; the accumulator is
  the zero word, and the contraction index — a one-axis multi-index — is identified with its one
  coordinate `k : Fin K`.  The dimension numbers enter only through four coordinate facts (which axis of
  each operand is the output's and which is the contracted one), so the lemma serves every plain
  row-by-column product whatever the name of its dimension record.
-/
import Idealize.ShloMosaic.PureOps.Ideal.Laws
import Idealize.ShloMosaic.Lib.ValueIdx

noncomputable section

open scoped BigOperators

namespace Cert.LibMatmulRows

open Idealize.ShloMosaic Idealize.ShloMosaic.ValueIdx

/-- `(l · r)[p, j] = ∑ k, l[p,k] · r[k,j]` for a product into the zero accumulator whose left operand index at
    output `i` and contraction position `q` is `(i 0, q)` and whose right operand index is `(q, i 1)`. -/
theorem matmul_zero_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    matmul D prec l r (constant (F := Ideal) ⟨2, ![M, N]⟩ .f32 0x00000000#32) (ix2 p j)
      = ∑ k : Fin K, l (ix2 p k) * r (ix2 k j) := by
  show FloatOps.matmul D prec l r (constant (F := Ideal) ⟨2, ![M, N]⟩ .f32 0x00000000#32) (ix2 p j) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.LibMatmulRows

end
-- ==== Proof.DenseSpec.lean ====
/-
  The two dense stages of one layer, as functions of whole arrays.

  * `rowsByCols X W`: entry (r, j) is the sum over k of X[r,k] · W[k,j] — a row of `X` against a column of `W`.
  * `addRow S b`: entry (r, j) is S[r,j] + b[j] — a length-C vector added to every row.
  * `addRowPos S b`: the same followed by the maximum with the zero word — the rectifier.

  All three are over the extended reals, entry by entry; nothing here is specific to a block size.
-/
import Idealize.ShloMosaic.PureOps.Ideal.Laws
import Idealize.ShloMosaic.Lib.ValueIdx

noncomputable section

open scoped BigOperators

namespace Cert.DenseSpec

open Idealize.ShloMosaic Idealize.ShloMosaic.ValueIdx

/-- `(X · W)[r, j] = ∑ k, X[r,k] · W[k,j]`. -/
def rowsByCols {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

theorem rowsByCols_apply {M K N : ℕ} (X : (⟨2, ![M, K]⟩ : Shape).Idx → EReal) (W : (⟨2, ![K, N]⟩ : Shape).Idx → EReal)
    (r : Fin M) (j : Fin N) : rowsByCols X W (ix2 r j) = ∑ k : Fin K, X (ix2 r k) * W (ix2 k j) := rfl

/-- `S[r,j] + b[j]`. -/
def addRow {M C : ℕ} (S : (⟨2, ![M, C]⟩ : Shape).Idx → Ideal .f32) (b : (⟨1, ![C]⟩ : Shape).Idx → Ideal .f32) :
    (⟨2, ![M, C]⟩ : Shape).Idx → Ideal .f32 :=
  fun i => S i + b (ix1 (i 1))

theorem addRow_apply {M C : ℕ} (S : (⟨2, ![M, C]⟩ : Shape).Idx → Ideal .f32) (b : (⟨1, ![C]⟩ : Shape).Idx → Ideal .f32)
    (r : Fin M) (j : Fin C) : addRow S b (ix2 r j) = S (ix2 r j) + b (ix1 j) := rfl

/-- `max (S[r,j] + b[j]) 0`, the zero being the zero word's value. -/
def addRowPos {M C : ℕ} (S : (⟨2, ![M, C]⟩ : Shape).Idx → Ideal .f32) (b : (⟨1, ![C]⟩ : Shape).Idx → Ideal .f32) :
    (⟨2, ![M, C]⟩ : Shape).Idx → Ideal .f32 :=
  fun i => max (S i + b (ix1 (i 1))) (Ideal.ofBits .f32 0x00000000#32)

theorem addRowPos_apply {M C : ℕ} (S : (⟨2, ![M, C]⟩ : Shape).Idx → Ideal .f32) (b : (⟨1, ![C]⟩ : Shape).Idx → Ideal .f32)
    (r : Fin M) (j : Fin C) :
    addRowPos S b (ix2 r j) = max (S (ix2 r j) + b (ix1 j)) (Ideal.ofBits .f32 0x00000000#32) := rfl

end Cert.DenseSpec

end
-- ==== Proof.Grid0.lean ====
/-
  Grid 0: a 100000 × 128 array times a 128 × 128 matrix, twenty blocks of 5000 rows.

  Each grid point loads rows 5000·t … 5000·t + 4999 of the left array and the whole right matrix, multiplies them
  into a zero accumulator, and writes the product back as the same rows of the result.  An entry of a block's product
  depends only on its own row of the left array, so the blocks, put side by side, are the product of the whole arrays:
  entry (r, j) of the result is the sum over k of left[r,k] · right[k,j].  The narrowing of both operands to a
  sixteen-bit format before the product changes nothing at the exact values.
-/
import proofs.«103530_j24687472017556_1_alg».proof.Proof.Gen.KernelIdeal.Frame
import proofs.«103530_j24687472017556_1_alg».proof.Proof.LibMatmulRows
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Grid0

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## The product's dimension record: which coordinate of each operand is the output's, which the contracted one -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_k (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_k (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One block -/

/-- What one grid point stores, at row `p` and column `q` of its block: row `p` of the loaded rows against column `q`
    of the loaded matrix. -/
theorem block_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.LibMatmulRows.matmul_zero_apply dot_S5000x128_S128x128_S5000x128_1_0_0_1_n_n rfl rfl lhs_row lhs_k rhs_k rhs_col none _ _ p q

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The block indices, decided over the twenty grid points: the left and the result windows sit at block row `t`,
    column block 0; the right window is always its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What grid point `t` writes back is block `t` of the product of the two arrays as the grid finds them. -/
theorem flushed_eq (c : Dev nD) (t : Fin cfg0.N) :
    (dat0 V c).flushed 2 t = ((cfg0.win 2).blk t).view.read (Elt Ideal)
      (rowsByCols (M := 100000) (K := 128) (N := 128) (V c main_arg0) (V c main_arg3)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e00, e01, e10, e11, e20, e21⟩ := block_indices t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = rowsByCols (M := 100000) (K := 128) (N := 128) (V c main_arg0) (V c main_arg3) (((cfg0.win 2).blk t).view.emb (ix2 p q))
  rw [block_apply (iblk0 V c 0 t) (iblk0 V c 1 t) p q]
  unfold rowsByCols
  refine Finset.sum_congr rfl fun k _ => ?_
  have h0 : ((cfg0.win 0).blk t).view.emb (ix2 p k)
      = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q)
      = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  have e0 : iblk0 V c 0 t (ix2 p k) = V c main_arg0 (ix2 ((((cfg0.win 2).blk t).view.emb (ix2 p q)) 0) k) := congrArg (V c main_arg0) h0
  have e1 : iblk0 V c 1 t (ix2 k q) = V c main_arg3 (ix2 k ((((cfg0.win 2).blk t).view.emb (ix2 p q)) 1)) := congrArg (V c main_arg3) h1
  rw [e0, e1]

/-- An index of the result is in point `t`'s block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Row `r` of the result is written by grid point `r / 5000`: the twenty blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := block_indices t
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the twenty grid points the result array is the product of the two arrays the grid was entered with. -/
theorem array_eq (c : Dev nD) :
    (dat0 V c).arrAt 2 cfg0.N = rowsByCols (M := 100000) (K := 128) (N := 128) (V c main_arg0) (V c main_arg3) :=
  (dat0 V c).arrAt_eq_of_cover 2 _ (fun t _ => flushed_eq V c t) covered

end Cert.KernelIdeal.Grid0

end
-- ==== Proof.Grid1.lean ====
/-
  Grid 1: a length-128 vector added to every row of a 100000 × 128 array, then the maximum with zero, twenty blocks of 5000 rows.

  Each grid point loads rows 5000·t … 5000·t + 4999 of the array and the vector (held as one row), adds the row to
  every loaded row, takes the maximum with the zero word and writes the rows back in place.  An entry of the result
  depends only on the same entry of the array and the vector's entry in its column, so the blocks put side by side
  are the whole-array operation: entry (r, j) is max (S[r,j] + b[j]) 0.
-/
import proofs.«103530_j24687472017556_1_alg».proof.Proof.Gen.KernelIdeal.Frame
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Grid1

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## One block -/

/-- What one grid point stores, at row `p` and column `q` of its block: the loaded entry plus the row's entry in
    column `q`, or zero if that is larger. -/
theorem block_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S5000x128 x1 broadcasts_S1x128_S5000x128 (ix2 p q)) (Ideal.ofBits .f32 0x00000000#32) = _
  rw [broadcastTo_apply x1 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The vector, read out of the one-row array the grid is given. -/
abbrev rowVec (c : Dev nD) : (⟨1, ![128]⟩ : Shape).Idx → Ideal .f32 := fun j => V c main_v46 (ix2 (0 : Fin 1) (j 0))

/-- The block indices, decided over the twenty grid points: the array and the result windows sit at block row `t`;
    the one-row window is always its one block. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the whole-array operation on the arrays as the grid finds them. -/
theorem flushed_eq (c : Dev nD) (t : Fin cfg1.N) :
    (dat1 V c).flushed 2 t = ((cfg1.win 2).blk t).view.read (Elt Ideal)
      (addRowPos (M := 100000) (C := 128) (V c main_v45) (rowVec V c)) := by
  show (cfg1.win 2).cut (grid1.coords t) ((dat1 V c).after 2 t) = _
  rw [after1_2]
  unfold out1_2
  rw [View.canon_unit_zero zero_off]
  simp only [View.ld_unit_zero (S := S5000x128) zero_off, View.ld_unit_zero (S := S1x128) zero_off]
  obtain ⟨e00, e01, e10, e11, e20, e21⟩ := block_indices t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = addRowPos (M := 100000) (C := 128) (V c main_v45) (rowVec V c) (((cfg1.win 2).blk t).view.emb (ix2 p q))
  rw [block_apply (iblk1 V c 0 t) (iblk1 V c 1 t) p q]
  unfold addRowPos
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q)
      = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  have e0 : iblk1 V c 0 t (ix2 p q) = V c main_v45 (((cfg1.win 2).blk t).view.emb (ix2 p q)) := congrArg (V c main_v45) h0
  have e1 : iblk1 V c 1 t (ix2 (0 : Fin 1) q) = rowVec V c (ix1 ((((cfg1.win 2).blk t).view.emb (ix2 p q)) 1)) := congrArg (V c main_v46) h1
  rw [e0, e1]

/-- An index of the result is in point `t`'s block iff each coordinate lies in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Row `r` of the result is written by grid point `r / 5000`: the twenty blocks cover the array. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, e20, e21⟩ := block_indices t
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the twenty grid points the result array is the whole-array operation on what the grid was entered with. -/
theorem array_eq (c : Dev nD) :
    (dat1 V c).arrAt 2 cfg1.N = addRowPos (M := 100000) (C := 128) (V c main_v45) (rowVec V c) :=
  (dat1 V c).arrAt_eq_of_cover 2 _ (fun t _ => flushed_eq V c t) covered

end Cert.KernelIdeal.Grid1

end
-- ==== Proof.LibHostRows.lean ====
/-
  Host-side row operations read at one entry, at the exact values.

  * A `dot_general` of an `M × K` by a `K × N` matrix along the one shared axis: entry `(p, j)` is
    `∑ k, l[p,k] · r[k,j]` — at the exact values the host's product has no accumulator, no rounding and no order.
  * A vector of length `C` viewed as one row and that row spread over `R` rows: entry `(p, k)` is the vector's `k`.
  * A vector of length `C` re-laid as a `1 × C` block: entry `(0, k)` is the vector's `k`.
-/
import Idealize.ShloMosaic.PureOps.Ideal.Laws
import Idealize.ShloMosaic.Lib.ValueIdx
import Idealize.ShloMosaic.Lib.Pipeline.Value

noncomputable section

open scoped BigOperators

namespace Cert.LibHostRows

open Idealize.ShloMosaic Idealize.ShloMosaic.ValueIdx

/-- `(l · r)[p, j] = ∑ k, l[p,k] · r[k,j]` for the host's product whose left operand index at output `i` and
    contraction position `q` is `(i 0, q)` and whose right operand index is `(q, i 1)`. -/
theorem hostDot_apply {M K N : ℕ} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision) (l : FVec Ideal ⟨2, ![M, K]⟩ φ₁) (r : FVec Ideal ⟨2, ![K, N]⟩ φ₂)
    (p : Fin M) (j : Fin N) :
    Host.dotGeneral (F := Ideal) D prec l r (ix2 p j) = ∑ k : Fin K, l (ix2 p k) * r (ix2 k j) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A vector viewed as one row, the row spread over `R` rows: entry `(p, k)` is the vector's entry `k`. -/
theorem rowOfVec_spread_apply {α : Type} {R C : ℕ} (hC : C ≠ 1) (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (k : Fin C) :
    broadcastInDim ⟨2, ![R, C]⟩ ![0, 1] h2 (broadcastInDim ⟨2, ![1, C]⟩ ![1] h1 b) (ix2 p k) = b (ix1 k) := by
  rw [broadcastInDim_apply ![0, 1] h2 _ (ix2 p k) (ix2 (0 : Fin 1) k) (fun a => match a with
    | ⟨0, _⟩ => by show 0 = if (1 : Nat) = 1 then 0 else _; rw [if_pos rfl]
    | ⟨1, _⟩ => by show k.val = if C = 1 then 0 else k.val; rw [if_neg hC])]
  exact broadcastInDim_apply ![1] h1 b (ix2 (0 : Fin 1) k) (ix1 k) (fun a => match a with
    | ⟨0, _⟩ => by show k.val = if C = 1 then 0 else k.val; rw [if_neg hC])

/-- A vector re-laid as a one-row block: entry `(0, k)` is the vector's entry `k` (the same row-major position). -/
theorem rowOfVec_cast_apply {α : Type} {C : ℕ} (b : (⟨1, ![C]⟩ : Shape).Idx → α)
    (h : (⟨1, ![C]⟩ : Shape).ShapeCasts ⟨2, ![1, C]⟩) (k : Fin C) :
    shapeCast ⟨2, ![1, C]⟩ b h (ix2 (0 : Fin 1) k) = b (ix1 k) :=
  shapeCast_apply b h (ix2 (0 : Fin 1) k) (ix1 k) (by
    rw [Shape.rowMajor_val_one, Shape.rowMajor_val_two]
    show k.val = 0 * C + k.val
    omega)

end Cert.LibHostRows

end
-- ==== Proof.RefStages.lean ====
/-
  The reference's dense stages as whole-array functions.

  The reference computes each layer on the host: a `dot_general` of the previous activations with the weight matrix, the
  message passing (shared with the kernel and never opened here), then the bias vector spread over all rows and added,
  and for the first three layers the maximum with zero.  Entry by entry at the exact values: the product's entry (r, j) is
  the sum over k of the row's entries times the column's; the spread vector's entry (r, j) is the vector's entry j.
-/
import proofs.«103530_j24687472017556_1_alg».proof.Proof.RefReadP
import proofs.«103530_j24687472017556_1_alg».proof.Proof.LibHostRows
import proofs.«103530_j24687472017556_1_alg».proof.Proof.DenseSpec

noncomputable section

open scoped BigOperators

namespace Cert.ReferenceIdeal.Stages

open Cert.ReferenceIdeal Cert.ReferenceIdeal.Gen Cert.ReferenceIdeal.ReadP Cert.DenseSpec
open Idealize.ShloMosaic Idealize.ShloMosaic.ValueIdx

/-- The host's product of a 100000 × 128 array with a 128 × 128 matrix, entry by entry. -/
theorem dot128 (X : FVec Ideal S100000x128 .f32) (W : FVec Ideal S128x128 .f32) :
    Host.dotGeneral (F := Ideal) dot_S100000x128_S128x128_S100000x128_1_0_0_1_n_n none X W = rowsByCols (M := 100000) (K := 128) (N := 128) X W := by
  funext i
  obtain ⟨p, q, rfl⟩ : ∃ (p : Fin 100000) (q : Fin 128), i = ix2 p q := ⟨i 0, i 1, eq_ix2 i⟩
  rw [Cert.LibHostRows.hostDot_apply dot_S100000x128_S128x128_S100000x128_1_0_0_1_n_n rfl rfl lhs_main_v32_0 lhs_main_v32_1 rhs_main_v32_0 rhs_main_v32_1 none X W p q]
  rfl

/-- The host's product of a 100000 × 128 array with a 128 × 10 matrix, entry by entry. -/
theorem dot10 (X : FVec Ideal S100000x128 .f32) (W : FVec Ideal S128x10 .f32) :
    Host.dotGeneral (F := Ideal) dot_S100000x128_S128x10_S100000x10_1_0_0_1_n_n none X W = rowsByCols (M := 100000) (K := 128) (N := 10) X W := by
  funext i
  obtain ⟨p, q, rfl⟩ : ∃ (p : Fin 100000) (q : Fin 10), i = ix2 p q := ⟨i 0, i 1, eq_ix2 i⟩
  rw [Cert.LibHostRows.hostDot_apply dot_S100000x128_S128x10_S100000x10_1_0_0_1_n_n rfl rfl lhs_main_v86_0 lhs_main_v86_1 rhs_main_v86_0 rhs_main_v86_1 none X W p q]
  rfl

/-- A length-128 vector spread over 100000 rows and added, then the maximum with the zero word spread likewise. -/
theorem biasPos (S : FVec Ideal S100000x128 .f32) (b : FVec Ideal S128 .f32) :
    maximumf (addf S (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = addRowPos (M := 100000) (C := 128) S b := by
  funext i
  obtain ⟨p, q, rfl⟩ : ∃ (p : Fin 100000) (q : Fin 128), i = ix2 p q := ⟨i 0, i 1, eq_ix2 i⟩
  show max (S (ix2 p q) + broadcastInDim S100000x128 ![0, 1] bcast_S1x128_S100000x128_0_1 (broadcastInDim S1x128 ![1] bcast_S128_S1x128_1 b) (ix2 p q))
      (broadcastInDim S100000x128 ![] bcast_S_S100000x128 (constant (F := Ideal) S_ .f32 0x00000000#32) (ix2 p q))
    = max (S (ix2 p q) + b (ix1 q)) (Ideal.ofBits .f32 0x00000000#32)
  rw [Cert.LibHostRows.rowOfVec_spread_apply (by decide) b bcast_S128_S1x128_1 bcast_S1x128_S100000x128_0_1 p q,
    broadcastInDim_apply ![] bcast_S_S100000x128 (constant (F := Ideal) S_ .f32 0x00000000#32) (ix2 p q) ix0 (fun a => a.elim0)]
  rfl

/-- A length-10 vector spread over 100000 rows and added. -/
theorem biasOnly (S : FVec Ideal S100000x10 .f32) (b : FVec Ideal S10 .f32) :
    addf S (broadcastInDim S100000x10 ![0, 1] bcast_S1x10_S100000x10_0_1 (broadcastInDim S1x10 ![1] bcast_S10_S1x10_1 b))
    = addRow (M := 100000) (C := 10) S b := by
  funext i
  obtain ⟨p, q, rfl⟩ : ∃ (p : Fin 100000) (q : Fin 10), i = ix2 p q := ⟨i 0, i 1, eq_ix2 i⟩
  show S (ix2 p q) + broadcastInDim S100000x10 ![0, 1] bcast_S1x10_S100000x10_0_1 (broadcastInDim S1x10 ![1] bcast_S10_S1x10_1 b) (ix2 p q)
    = S (ix2 p q) + b (ix1 q)
  rw [Cert.LibHostRows.rowOfVec_spread_apply (by decide) b bcast_S10_S1x10_1 bcast_S1x10_S100000x10_0_1 p q]

/-! ## The stages, each from the one before -/

/-- The product stage: the previous stage's rows against the columns of the weight matrix. -/
theorem stage_v32 (x0 : (⟨S100000x128, .f32⟩ : BufTy).Contents (Elt Ideal)) (x3 : (⟨S128x128, .f32⟩ : BufTy).Contents (Elt Ideal)) :
    val_main_v32 (F := Ideal) x0 x3 = rowsByCols (M := 100000) (K := 128) (N := 128) (x0) x3 := by
  show Host.dotGeneral (F := Ideal) dot_S100000x128_S128x128_S100000x128_1_0_0_1_n_n none (x0) x3 = _
  exact dot128 _ _

/-- The vector is added to every row of the previous stage and the rectifier applied. -/
theorem stage_v49 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) :
    val_main_v49 (F := Ideal) x0 x1 x3 x4 = addRowPos (M := 100000) (C := 128) (val_main_v45 (F := Ideal) x0 x1 x3) x4 := by
  show maximumf (addf (val_main_v45 (F := Ideal) x0 x1 x3) (broadcastInDim S100000x128 ![0, 1] bcast_S1x128_S100000x128_0_1 (broadcastInDim S1x128 ![1] bcast_S128_S1x128_1 x4)))
      (broadcastInDim S100000x128 ![] bcast_S_S100000x128 (constant (F := Ideal) S_ .f32 0x00000000#32)) = _
  exact biasPos _ _

/-- The product stage: the previous stage's rows against the columns of the weight matrix. -/
theorem stage_v50 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) :
    val_main_v50 (F := Ideal) x0 x1 x3 x4 x5 = rowsByCols (M := 100000) (K := 128) (N := 128) (val_main_v49 (F := Ideal) x0 x1 x3 x4) x5 := by
  show Host.dotGeneral (F := Ideal) dot_S100000x128_S128x128_S100000x128_1_0_0_1_n_n none (val_main_v49 (F := Ideal) x0 x1 x3 x4) x5 = _
  exact dot128 _ _

/-- The vector is added to every row of the previous stage and the rectifier applied. -/
theorem stage_v67 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v67 (F := Ideal) x0 x1 x3 x4 x5 x6 = addRowPos (M := 100000) (C := 128) (val_main_v63 (F := Ideal) x0 x1 x3 x4 x5) x6 := by
  show maximumf (addf (val_main_v63 (F := Ideal) x0 x1 x3 x4 x5) (broadcastInDim S100000x128 ![0, 1] bcast_S1x128_S100000x128_0_1 (broadcastInDim S1x128 ![1] bcast_S128_S1x128_1 x6)))
      (broadcastInDim S100000x128 ![] bcast_S_S100000x128 (constant (F := Ideal) S_ .f32 0x00000000#32)) = _
  exact biasPos _ _

/-- The product stage: the previous stage's rows against the columns of the weight matrix. -/
theorem stage_v68 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v68 (F := Ideal) x0 x1 x3 x4 x5 x6 x7 = rowsByCols (M := 100000) (K := 128) (N := 128) (val_main_v67 (F := Ideal) x0 x1 x3 x4 x5 x6) x7 := by
  show Host.dotGeneral (F := Ideal) dot_S100000x128_S128x128_S100000x128_1_0_0_1_n_n none (val_main_v67 (F := Ideal) x0 x1 x3 x4 x5 x6) x7 = _
  exact dot128 _ _

/-- The vector is added to every row of the previous stage and the rectifier applied. -/
theorem stage_v85 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v85 (F := Ideal) x0 x1 x3 x4 x5 x6 x7 x8 = addRowPos (M := 100000) (C := 128) (val_main_v81 (F := Ideal) x0 x1 x3 x4 x5 x6 x7) x8 := by
  show maximumf (addf (val_main_v81 (F := Ideal) x0 x1 x3 x4 x5 x6 x7) (broadcastInDim S100000x128 ![0, 1] bcast_S1x128_S100000x128_0_1 (broadcastInDim S1x128 ![1] bcast_S128_S1x128_1 x8)))
      (broadcastInDim S100000x128 ![] bcast_S_S100000x128 (constant (F := Ideal) S_ .f32 0x00000000#32)) = _
  exact biasPos _ _

/-- The product stage: the previous stage's rows against the columns of the weight matrix. -/
theorem stage_v86 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x10, .f32⟩ : BufTy).Contents (Elt Ideal)) :
    val_main_v86 (F := Ideal) x0 x1 x3 x4 x5 x6 x7 x8 x9 = rowsByCols (M := 100000) (K := 128) (N := 10) (val_main_v85 (F := Ideal) x0 x1 x3 x4 x5 x6 x7 x8) x9 := by
  show Host.dotGeneral (F := Ideal) dot_S100000x128_S128x10_S100000x10_1_0_0_1_n_n none (val_main_v85 (F := Ideal) x0 x1 x3 x4 x5 x6 x7 x8) x9 = _
  exact dot10 _ _

/-- The last layer: the vector is added to every row, with no rectifier. -/
theorem stage_v102 (x0 : (⟨S100000x128, .f32⟩ : BufTy).Contents (Elt Ideal)) (x1 : (⟨S2x1600000, .i32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) (x9 : (⟨S128x10, .f32⟩ : BufTy).Contents (Elt Ideal)) (x10 : (⟨S10, .f32⟩ : BufTy).Contents (Elt Ideal)) :
    val_main_v102 (F := Ideal) x0 x1 x3 x4 x5 x6 x7 x8 x9 x10 = addRow (M := 100000) (C := 10) (val_main_v99 (F := Ideal) x0 x1 x3 x4 x5 x6 x7 x8 x9) x10 := by
  show addf (F := Ideal) (val_main_v99 (F := Ideal) x0 x1 x3 x4 x5 x6 x7 x8 x9) (broadcastInDim S100000x10 ![0, 1] bcast_S1x10_S100000x10_0_1 (broadcastInDim S1x10 ![1] bcast_S10_S1x10_1 x10)) = _
  exact biasOnly _ _

end Cert.ReferenceIdeal.Stages

end
-- ==== Proof.Walk1.lean ====
/-
  The first layer along the idealized kernel's boundaries: the product grid, the message passing on the host, the
  bias grid.  At each boundary the layer's live array is the reference's stage of the same name, as a function of the
  launched arguments.
-/
import proofs.«103530_j24687472017556_1_alg».proof.Proof.WalkKeep
import proofs.«103530_j24687472017556_1_alg».proof.Proof.Grid0
import proofs.«103530_j24687472017556_1_alg».proof.Proof.Grid1
import proofs.«103530_j24687472017556_1_alg».proof.Proof.RefStages
import proofs.«103530_j24687472017556_1_alg».proof.Proof.LibHostRows

set_option maxRecDepth 16384

noncomputable section

namespace Cert.KernelIdeal.Walk

open Cert.KernelIdeal Cert.KernelIdeal.Gen Cert.DenseSpec
open Idealize.ShloMosaic Idealize.ShloMosaic.TcCoe Idealize.ShloMosaic.ValueIdx Idealize.SL.Sem Idealize.ShloMosaic.StableHlo
open Idealize.ShloMosaic.Pipeline (Dat Cfg Window)

open Cert.ReferenceIdeal.ReadP

variable (m : (ℓ : Loc nD τ sig) → Buf (Elt Ideal) ℓ) (ρ : Dev nD → PrngReg) (c : Dev nD)

/-- Grid 0's result: the rows entering it against the columns of the layer's weight matrix. -/
theorem w4_v32 : W4 m ρ c (Proc.devRef .tc main_v32) = val_main_v32 (F := Ideal) (m ((c : Thread nD τ).loc main_arg0)) (m ((c : Thread nD τ).loc main_arg3)) :=
  calc W4 m ρ c (Proc.devRef .tc main_v32)
      = (dat0 (V3 m ρ) c).arrAt 2 cfg0.N := W4_arr m ρ c 2
    _ = rowsByCols (M := 100000) (K := 128) (N := 128) (V3 m ρ c main_arg0) (V3 m ρ c main_arg3) := Grid0.array_eq (V3 m ρ) c
    _ = rowsByCols (M := 100000) (K := 128) (N := 128) (m ((c : Thread nD τ).loc main_arg0)) (m ((c : Thread nD τ).loc main_arg3)) := by
        rw [show V3 m ρ c main_arg0 = _ from w3_arg0 m ρ c, show V3 m ρ c main_arg3 = _ from w3_arg3 m ρ c]
    _ = val_main_v32 (F := Ideal) (m ((c : Thread nD τ).loc main_arg0)) (m ((c : Thread nD τ).loc main_arg3)) := (Cert.ReferenceIdeal.Stages.stage_v32 _ _).symm

/-- The message passing after grid 0: the reference's own stage of the product just computed. -/
theorem w5_v45 : W5 m ρ c (Proc.devRef .tc main_v45) = val_main_v45 (F := Ideal) (m ((c : Thread nD τ).loc main_arg0)) (m ((c : Thread nD τ).loc main_arg1)) (m ((c : Thread nD τ).loc main_arg3)) :=
  HostStretches.msg1_out (W4 m ρ c) (m ((c : Thread nD τ).loc main_arg0)) (m ((c : Thread nD τ).loc main_arg1)) (m ((c : Thread nD τ).loc main_arg3)) (w4_v32 m ρ c) (kept4 m ρ c).v3 (kept4 m ρ c).v6 (kept4 m ρ c).v31

/-- The layer's bias vector, re-laid as one row for the next grid. -/
theorem w5_v46 : W5 m ρ c (Proc.devRef .tc main_v46)
    = shapeCast S1x128 (m ((c : Thread nD τ).loc main_arg4)) shapeCasts_S128_S1x128 :=
  HostStretches.msg1_row (W4 m ρ c) (m ((c : Thread nD τ).loc main_arg4)) (kept4 m ρ c).a4

/-- Read back out of that row, the vector is the argument itself. -/
theorem row5 : Grid1.rowVec (V5 m ρ) c = m ((c : Thread nD τ).loc main_arg4) := by
  funext j
  obtain ⟨k, rfl⟩ : ∃ k : Fin 128, j = ix1 k := ⟨j 0, eq_ix1 j⟩
  show V5 m ρ c main_v46 (ix2 (0 : Fin 1) k) = _
  rw [show V5 m ρ c main_v46 = _ from w5_v46 m ρ c]
  exact Cert.LibHostRows.rowOfVec_cast_apply (m ((c : Thread nD τ).loc main_arg4)) shapeCasts_S128_S1x128 k

/-- Grid 1's result: the bias added to every row, then the rectifier. -/
theorem w6_v47 : W6 m ρ c (Proc.devRef .tc main_v47) = val_main_v49 (F := Ideal) (m ((c : Thread nD τ).loc main_arg0)) (m ((c : Thread nD τ).loc main_arg1)) (m ((c : Thread nD τ).loc main_arg3)) (m ((c : Thread nD τ).loc main_arg4)) :=
  calc W6 m ρ c (Proc.devRef .tc main_v47)
      = (dat1 (V5 m ρ) c).arrAt 2 cfg1.N := W6_arr m ρ c 2
    _ = addRowPos (M := 100000) (C := 128) (V5 m ρ c main_v45) (Grid1.rowVec (V5 m ρ) c) := Grid1.array_eq (V5 m ρ) c
    _ = addRowPos (M := 100000) (C := 128) (val_main_v45 (F := Ideal) (m ((c : Thread nD τ).loc main_arg0)) (m ((c : Thread nD τ).loc main_arg1)) (m ((c : Thread nD τ).loc main_arg3))) (m ((c : Thread nD τ).loc main_arg4)) := by
        rw [show V5 m ρ c main_v45 = _ from w5_v45 m ρ c, row5 m ρ c]
    _ = val_main_v49 (F := Ideal) (m ((c : Thread nD τ).loc main_arg0)) (m ((c : Thread nD τ).loc main_arg1)) (m ((c : Thread nD τ).loc main_arg3)) (m ((c : Thread nD τ).loc main_arg4)) := (Cert.ReferenceIdeal.Stages.stage_v49 _ _ _ _).symm
end Cert.KernelIdeal.Walk

end
-- ==== Proof.Grid2.lean ====
/-
  Grid 2: a 100000 × 128 array times a 128 × 128 matrix, twenty blocks of 5000 rows.

  Each grid point loads rows 5000·t … 5000·t + 4999 of the left array and the whole right matrix, multiplies them
  into a zero accumulator, and writes the product back as the same rows of the result.  An entry of a block's product
  depends only on its own row of the left array, so the blocks, put side by side, are the product of the whole arrays:
  entry (r, j) of the result is the sum over k of left[r,k] · right[k,j].  The narrowing of both operands to a
  sixteen-bit format before the product changes nothing at the exact values.
-/
import proofs.«103530_j24687472017556_1_alg».proof.Proof.Gen.KernelIdeal.Frame
import proofs.«103530_j24687472017556_1_alg».proof.Proof.LibMatmulRows
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Grid2

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## The product's dimension record: which coordinate of each operand is the output's, which the contracted one -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_k (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_k (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One block -/

/-- What one grid point stores, at row `p` and column `q` of its block: row `p` of the loaded rows against column `q`
    of the loaded matrix. -/
theorem block_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Cert.LibMatmulRows.matmul_zero_apply dot_S5000x128_S128x128_S5000x128_1_0_0_1_n_n rfl rfl lhs_row lhs_k rhs_k rhs_col none _ _ p q

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The block indices, decided over the twenty grid points: the left and the result windows sit at block row `t`,
    column block 0; the right window is always its one block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What grid point `t` writes back is block `t` of the product of the two arrays as the grid finds them. -/
theorem flushed_eq (c : Dev nD) (t : Fin cfg2.N) :
    (dat2 V c).flushed 2 t = ((cfg2.win 2).blk t).view.read (Elt Ideal)
      (rowsByCols (M := 100000) (K := 128) (N := 128) (V c main_v47) (V c main_arg5)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  obtain ⟨e00, e01, e10, e11, e20, e21⟩ := block_indices t
  funext j
  obtain ⟨p, q, rfl⟩ : ∃ (p : Fin 5000) (q : Fin 128), j = ix2 p q := ⟨j 0, j 1, eq_ix2 j⟩
  show k2_pay1 (F := Ideal) (iblk2 V c 0 t) (iblk2 V c 1 t) (ix2 p q)
    = rowsByCols (M := 100000) (K := 128) (N := 128) (V c main_v47) (V c main_arg5) (((cfg2.win 2).blk t).view.emb (ix2 p q))
  rw [block_apply (iblk2 V c 0 t) (iblk2 V c 1 t) p q]
  unfold rowsByCols
  refine Finset.sum_congr rfl fun k _ => ?_
  have h0 : ((cfg2.win 0).blk t).view.emb (ix2 p k)
      = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : ((cfg2.win 1).blk t).view.emb (ix2 k q)
      = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  have e0 : iblk2 V c 0 t (ix2 p k) = V c main_v47 (ix2 ((((cfg2.win 2).blk t).view.emb (ix2 p q)) 0) k) := congrArg (V c main_v47) h0
  have e1 : iblk2 V c 1 t (ix2 k q) = V c main_arg5 (ix2 k ((((cfg2.win 2).blk t).view.emb (ix2 p q)) 1)) := congrArg (V c main_arg5) h1
  rw [e0, e1]

/-- An index of the result is in point `t`'s block iff each coordinate lies in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row `r` of the result is written by grid point `r / 5000`: the twenty blocks cover the array. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e20, e21⟩ := block_indices t
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the twenty grid points the result array is the product of the two arrays the grid was entered with. -/
theorem array_eq (c : Dev nD) :
    (dat2 V c).arrAt 2 cfg2.N = rowsByCols (M := 100000) (K := 128) (N := 128) (V c main_v47) (V c main_arg5) :=
  (dat2 V c).arrAt_eq_of_cover 2 _ (fun t _ => flushed_eq V c t) covered

end Cert.KernelIdeal.Grid2

end
-- ==== Proof.Grid3.lean ====
/-
  Grid 3: a length-128 vector added to every row of a 100000 × 128 array, then the maximum with zero, twenty blocks of 5000 rows.

  Each grid point loads rows 5000·t … 5000·t + 4999 of the array and the vector (held as one row), adds the row to
  every loaded row, takes the maximum with the zero word and writes the rows back in place.  An entry of the result
  depends only on the same entry of the array and the vector's entry in its column, so the blocks put side by side
  are the whole-array operation: entry (r, j) is max (S[r,j] + b[j]) 0.
-/
import proofs.«103530_j24687472017556_1_alg».proof.Proof.Gen.KernelIdeal.Frame
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Grid3

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## One block -/

/-- What one grid point stores, at row `p` and column `q` of its block: the loaded entry plus the row's entry in
    column `q`, or zero if that is larger. -/
theorem block_apply (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) (Ideal.ofBits .f32 0x00000000#32) := by
  unfold k3_pay1
  rw [shapeCast_self, shapeCast_self]
  show max (x0 (ix2 p q) + broadcastTo S5000x128 x1 broadcasts_S1x128_S5000x128 (ix2 p q)) (Ideal.ofBits .f32 0x00000000#32) = _
  rw [broadcastTo_apply x1 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The vector, read out of the one-row array the grid is given. -/
abbrev rowVec (c : Dev nD) : (⟨1, ![128]⟩ : Shape).Idx → Ideal .f32 := fun j => V c main_v62 (ix2 (0 : Fin 1) (j 0))

/-- The block indices, decided over the twenty grid points: the array and the result windows sit at block row `t`;
    the one-row window is always its one block. -/
theorem block_indices : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What grid point `t` writes back is block `t` of the whole-array operation on the arrays as the grid finds them. -/
theorem flushed_eq (c : Dev nD) (t : Fin cfg3.N) :
    (dat3 V c).flushed 2 t = ((cfg3.win 2).blk t).view.read (Elt Ideal)
      (addRowPos (M := 100000) (C := 128) (V c main_v61) (rowVec V c)) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S1x128) zero_off]
  obtain ⟨e00, e01, e10, e11, e20, e21⟩ := block_indices t
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
    = addRowPos (M := 100000) (C := 128) (V c main_v61) (rowVec V c) (((cfg3.win 2).blk t).view.emb (ix2 p q))
  rw [block_apply (iblk3 V c 0 t) (iblk3 V c 1 t) p q]
  unfold addRowPos
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  have e0 : iblk3 V c 0 t (ix2 p q) = V c main_v61 (((cfg3.win 2).blk t).view.emb (ix2 p q)) := congrArg (V c main_v61) h0
  have e1 : iblk3 V c 1 t (ix2 (0 : Fin 1) q) = rowVec V c (ix1 ((((cfg3.win 2).blk t).view.emb (ix2 p q)) 1)) := congrArg (V c main_v62) h1
  rw [e0, e1]

/-- An index of the result is in point `t`'s block iff each coordinate lies in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Row `r` of the result is written by grid point `r / 5000`: the twenty blocks cover the array. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e20, e21⟩ := block_indices t
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the twenty grid points the result array is the whole-array operation on what the grid was entered with. -/
theorem array_eq (c : Dev nD) :
    (dat3 V c).arrAt 2 cfg3.N = addRowPos (M := 100000) (C := 128) (V c main_v61) (rowVec V c) :=
  (dat3 V c).arrAt_eq_of_cover 2 _ (fun t _ => flushed_eq V c t) covered

end Cert.KernelIdeal.Grid3

end
-- ==== Proof.Walk2.lean ====
/-
  The second layer along the idealized kernel's boundaries: the product grid, the message passing on the host, the
  bias grid.  At each boundary the layer's live array is the reference's stage of the same name, as a function of the
  launched arguments.
-/
import proofs.«103530_j24687472017556_1_alg».proof.Proof.Walk1
import proofs.«103530_j24687472017556_1_alg».proof.Proof.Grid2
import proofs.«103530_j24687472017556_1_alg».proof.Proof.Grid3

set_option maxRecDepth 16384

noncomputable section

namespace Cert.KernelIdeal.Walk

open Cert.KernelIdeal Cert.KernelIdeal.Gen Cert.DenseSpec
open Idealize.ShloMosaic Idealize.ShloMosaic.TcCoe Idealize.ShloMosaic.ValueIdx Idealize.SL.Sem Idealize.ShloMosaic.StableHlo
open Idealize.ShloMosaic.Pipeline (Dat Cfg Window)

open Cert.ReferenceIdeal.ReadP

variable (m : (ℓ : Loc nD τ sig) → Buf (Elt Ideal) ℓ) (ρ : Dev nD → PrngReg) (c : Dev nD)

/-- Grid 2's result: the rows entering it against the columns of the layer's weight matrix. -/
theorem w7_v48 : W7 m ρ c (Proc.devRef .tc main_v48) = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  calc W7 m ρ c (Proc.devRef .tc main_v48)
      = (dat2 (V6 m ρ) c).arrAt 2 cfg2.N := W7_arr m ρ c 2
    _ = rowsByCols (M := 100000) (K := 128) (N := 128) (V6 m ρ c main_v47) (V6 m ρ c main_arg5) := Grid2.array_eq (V6 m ρ) c
    _ = rowsByCols (M := 100000) (K := 128) (N := 128) (val_main_v49 (F := Ideal) (m ((c : Thread nD τ).loc main_arg0)) (m ((c : Thread nD τ).loc main_arg1)) (m ((c : Thread nD τ).loc main_arg3)) (m ((c : Thread nD τ).loc main_arg4))) (m ((c : Thread nD τ).loc main_arg5)) := by
        rw [show V6 m ρ c main_v47 = _ from w6_v47 m ρ c, show V6 m ρ c main_arg5 = _ from (kept6 m ρ c).a5]
    _ = val_main_v50 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := (Cert.ReferenceIdeal.Stages.stage_v50 _ _ _ _ _).symm

/-- The message passing after grid 2: the reference's own stage of the product just computed. -/
theorem w8_v61 : W8 m ρ c (Proc.devRef .tc main_v61) = val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  HostStretches.msg2_out (W7 m ρ c) (m ((c : Thread nD τ).loc main_arg0)) (m ((c : Thread nD τ).loc main_arg1)) (m ((c : Thread nD τ).loc main_arg3)) (m ((c : Thread nD τ).loc main_arg4)) (m ((c : Thread nD τ).loc main_arg5)) (w7_v48 m ρ c) (kept7 m ρ c).v3 (kept7 m ρ c).v6 (kept7 m ρ c).v31

/-- The layer's bias vector, re-laid as one row for the next grid. -/
theorem w8_v62 : W8 m ρ c (Proc.devRef .tc main_v62)
    = shapeCast S1x128 (m ((c : Thread nD τ).loc main_arg6)) shapeCasts_S128_S1x128 :=
  HostStretches.msg2_row (W7 m ρ c) (m ((c : Thread nD τ).loc main_arg6)) (kept7 m ρ c).a6

/-- Read back out of that row, the vector is the argument itself. -/
theorem row8 : Grid3.rowVec (V8 m ρ) c = m ((c : Thread nD τ).loc main_arg6) := by
  funext j
  obtain ⟨k, rfl⟩ : ∃ k : Fin 128, j = ix1 k := ⟨j 0, eq_ix1 j⟩
  show V8 m ρ c main_v62 (ix2 (0 : Fin 1) k) = _
  rw [show V8 m ρ c main_v62 = _ from w8_v62 m ρ c]
  exact Cert.LibHostRows.rowOfVec_cast_apply (m ((c : Thread nD τ).loc main_arg6)) shapeCasts_S128_S1x128 k

/-- Grid 3's result: the bias added to every row, then the rectifier. -/
theorem w9_v63 : W9 m ρ c (Proc.devRef .tc main_v63) = val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  calc W9 m ρ c (Proc.devRef .tc main_v63)
      = (dat3 (V8 m ρ) c).arrAt 2 cfg3.N := W9_arr m ρ c 2
    _ = addRowPos (M := 100000) (C := 128) (V8 m ρ c main_v61) (Grid3.rowVec (V8 m ρ) c) := Grid3.array_eq (V8 m ρ) c
    _ = addRowPos (M := 100000) (C := 128) (val_main_v63 (F := Ideal) (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg6)) := by
        rw [show V8 m ρ c main_v61 = _ from w8_v61 m ρ c, row8 m ρ c]
    _ = val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := (Cert.ReferenceIdeal.Stages.stage_v67 _ _ _ _ _ _).symm
end Cert.KernelIdeal.Walk

end
-- ==== Proof.Grid4.lean ====
/-
  Grid 4: a 100000 × 128 array times a 128 × 128 matrix, twenty blocks of 5000 rows.

  Each grid point loads rows 5000·t … 5000·t + 4999 of the left array and the whole right matrix, multiplies them
  into a zero accumulator, and writes the product back as the same rows of the result.  An entry of a block's product
  depends only on its own row of the left array, so the blocks, put side by side, are the product of the whole arrays:
  entry (r, j) of the result is the sum over k of left[r,k] · right[k,j].  The narrowing of both operands to a
  sixteen-bit format before the product changes nothing at the exact values.
-/
import proofs.«103530_j24687472017556_1_alg».proof.Proof.Gen.KernelIdeal.Frame
import proofs.«103530_j24687472017556_1_alg».proof.Proof.LibMatmulRows
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Grid4

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## The product's dimension record: which coordinate of each operand is the output's, which the contracted one -/

theorem lhs_row (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_k (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs_k (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## One block -/

/-- What one grid point stores, at row `p` and column `q` of its block: row `p` of the loaded rows against column `q`
    of the loaded matrix. -/
theorem block_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) := by
  unfold k4_pay1
  rw [shapeCast_self]
  exact Cert.LibMatmulRows.matmul_zero_apply dot_S5000x128_S128x128_S5000x128_1_0_0_1_n_n rfl rfl lhs_row lhs_k rhs_k rhs_col none _ _ p q

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The block indices, decided over the twenty grid points: the left and the result windows sit at block row `t`,
    column block 0; the right window is always its one block. -/
theorem block_indices : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What grid point `t` writes back is block `t` of the product of the two arrays as the grid finds them. -/
theorem flushed_eq (c : Dev nD) (t : Fin cfg4.N) :
    (dat4 V c).flushed 2 t = ((cfg4.win 2).blk t).view.read (Elt Ideal)
      (rowsByCols (M := 100000) (K := 128) (N := 128) (V c main_v63) (V c main_arg7)) := by
  show (cfg4.win 2).cut (grid4.coords t) ((dat4 V c).after 2 t) = _
  rw [after4_2]
  unfold out4_2
  rw [View.canon_unit_zero zero_off]
  simp only [View.ld_unit_zero (S := S5000x128) zero_off, View.ld_unit_zero (S := S128x128) zero_off]
  obtain ⟨e00, e01, e10, e11, e20, e21⟩ := block_indices t
  funext j
  obtain ⟨p, q, rfl⟩ : ∃ (p : Fin 5000) (q : Fin 128), j = ix2 p q := ⟨j 0, j 1, eq_ix2 j⟩
  show k4_pay1 (F := Ideal) (iblk4 V c 0 t) (iblk4 V c 1 t) (ix2 p q)
    = rowsByCols (M := 100000) (K := 128) (N := 128) (V c main_v63) (V c main_arg7) (((cfg4.win 2).blk t).view.emb (ix2 p q))
  rw [block_apply (iblk4 V c 0 t) (iblk4 V c 1 t) p q]
  unfold rowsByCols
  refine Finset.sum_congr rfl fun k _ => ?_
  have h0 : ((cfg4.win 0).blk t).view.emb (ix2 p k)
      = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : ((cfg4.win 1).blk t).view.emb (ix2 k q)
      = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega
  have e0 : iblk4 V c 0 t (ix2 p k) = V c main_v63 (ix2 ((((cfg4.win 2).blk t).view.emb (ix2 p q)) 0) k) := congrArg (V c main_v63) h0
  have e1 : iblk4 V c 1 t (ix2 k q) = V c main_arg7 (ix2 k ((((cfg4.win 2).blk t).view.emb (ix2 p q)) 1)) := congrArg (V c main_arg7) h1
  rw [e0, e1]

/-- An index of the result is in point `t`'s block iff each coordinate lies in the block's range on its axis. -/
theorem mem_blk (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Row `r` of the result is written by grid point `r / 5000`: the twenty blocks cover the array. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e20, e21⟩ := block_indices t
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the twenty grid points the result array is the product of the two arrays the grid was entered with. -/
theorem array_eq (c : Dev nD) :
    (dat4 V c).arrAt 2 cfg4.N = rowsByCols (M := 100000) (K := 128) (N := 128) (V c main_v63) (V c main_arg7) :=
  (dat4 V c).arrAt_eq_of_cover 2 _ (fun t _ => flushed_eq V c t) covered

end Cert.KernelIdeal.Grid4

end
-- ==== Proof.Grid5.lean ====
/-
  Grid 5: a length-128 vector added to every row of a 100000 × 128 array, then the maximum with zero, twenty blocks of 5000 rows.

  Each grid point loads rows 5000·t … 5000·t + 4999 of the array and the vector (held as one row), adds the row to
  every loaded row, takes the maximum with the zero word and writes the rows back in place.  An entry of the result
  depends only on the same entry of the array and the vector's entry in its column, so the blocks put side by side
  are the whole-array operation: entry (r, j) is max (S[r,j] + b[j]) 0.
-/
import proofs.«103530_j24687472017556_1_alg».proof.Proof.Gen.KernelIdeal.Frame
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Grid5

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## One block -/

/-- What one grid point stores, at row `p` and column `q` of its block: the loaded entry plus the row's entry in
    column `q`, or zero if that is larger. -/
theorem block_apply (x0 : Vec Ideal S5000x128 .f32) (x1 : Vec Ideal S1x128 .f32) (p : Fin 5000) (q : Fin 128) :
    k5_pay1 (F := Ideal) x0 x1 (ix2 p q) = max (x0 (ix2 p q) + x1 (ix2 (0 : Fin 1) q)) (Ideal.ofBits .f32 0x00000000#32) := by
  unfold k5_pay1
  rw [shapeCast_self, shapeCast_self]
  show max (x0 (ix2 p q) + broadcastTo S5000x128 x1 broadcasts_S1x128_S5000x128 (ix2 p q)) (Ideal.ofBits .f32 0x00000000#32) = _
  rw [broadcastTo_apply x1 broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])]

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The vector, read out of the one-row array the grid is given. -/
abbrev rowVec (c : Dev nD) : (⟨1, ![128]⟩ : Shape).Idx → Ideal .f32 := fun j => V c main_v78 (ix2 (0 : Fin 1) (j 0))

/-- The block indices, decided over the twenty grid points: the array and the result windows sit at block row `t`;
    the one-row window is always its one block. -/
theorem block_indices : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What grid point `t` writes back is block `t` of the whole-array operation on the arrays as the grid finds them. -/
theorem flushed_eq (c : Dev nD) (t : Fin cfg5.N) :
    (dat5 V c).flushed 2 t = ((cfg5.win 2).blk t).view.read (Elt Ideal)
      (addRowPos (M := 100000) (C := 128) (V c main_v77) (rowVec V c)) := by
  show (cfg5.win 2).cut (grid5.coords t) ((dat5 V c).after 2 t) = _
  rw [after5_2]
  unfold out5_2
  rw [View.canon_unit_zero zero_off]
  simp only [View.ld_unit_zero (S := S5000x128) zero_off, View.ld_unit_zero (S := S1x128) zero_off]
  obtain ⟨e00, e01, e10, e11, e20, e21⟩ := block_indices t
  funext j
  obtain ⟨p, q, rfl⟩ : ∃ (p : Fin 5000) (q : Fin 128), j = ix2 p q := ⟨j 0, j 1, eq_ix2 j⟩
  show k5_pay1 (F := Ideal) (iblk5 V c 0 t) (iblk5 V c 1 t) (ix2 p q)
    = addRowPos (M := 100000) (C := 128) (V c main_v77) (rowVec V c) (((cfg5.win 2).blk t).view.emb (ix2 p q))
  rw [block_apply (iblk5 V c 0 t) (iblk5 V c 1 t) p q]
  unfold addRowPos
  have h0 : ((cfg5.win 0).blk t).view.emb (ix2 p q) = ((cfg5.win 2).blk t).view.emb (ix2 p q) := by
    funext a; apply Fin.ext
    match a with
    | ⟨0, _⟩ => show win5_0.index t (0 : Fin 2) * 5000 + 1 * p.val = win5_2.index t (0 : Fin 2) * 5000 + 1 * p.val; omega
    | ⟨1, _⟩ => show win5_0.index t (1 : Fin 2) * 128 + 1 * q.val = win5_2.index t (1 : Fin 2) * 128 + 1 * q.val; omega
  have h1 : ((cfg5.win 1).blk t).view.emb (ix2 (0 : Fin 1) q)
      = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega
  have e0 : iblk5 V c 0 t (ix2 p q) = V c main_v77 (((cfg5.win 2).blk t).view.emb (ix2 p q)) := congrArg (V c main_v77) h0
  have e1 : iblk5 V c 1 t (ix2 (0 : Fin 1) q) = rowVec V c (ix1 ((((cfg5.win 2).blk t).view.emb (ix2 p q)) 1)) := congrArg (V c main_v78) h1
  rw [e0, e1]

/-- An index of the result is in point `t`'s block iff each coordinate lies in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Row `r` of the result is written by grid point `r / 5000`: the twenty blocks cover the array. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, e20, e21⟩ := block_indices t
  refine ⟨t, flush5_2 t, ?_⟩
  rw [mem_blk]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- After the twenty grid points the result array is the whole-array operation on what the grid was entered with. -/
theorem array_eq (c : Dev nD) :
    (dat5 V c).arrAt 2 cfg5.N = addRowPos (M := 100000) (C := 128) (V c main_v77) (rowVec V c) :=
  (dat5 V c).arrAt_eq_of_cover 2 _ (fun t _ => flushed_eq V c t) covered

end Cert.KernelIdeal.Grid5

end
-- ==== Proof.Walk3.lean ====
/-
  The third layer along the idealized kernel's boundaries: the product grid, the message passing on the host, the
  bias grid.  At each boundary the layer's live array is the reference's stage of the same name, as a function of the
  launched arguments.
-/
import proofs.«103530_j24687472017556_1_alg».proof.Proof.Walk2
import proofs.«103530_j24687472017556_1_alg».proof.Proof.Grid4
import proofs.«103530_j24687472017556_1_alg».proof.Proof.Grid5

set_option maxRecDepth 16384

noncomputable section

namespace Cert.KernelIdeal.Walk

open Cert.KernelIdeal Cert.KernelIdeal.Gen Cert.DenseSpec
open Idealize.ShloMosaic Idealize.ShloMosaic.TcCoe Idealize.ShloMosaic.ValueIdx Idealize.SL.Sem Idealize.ShloMosaic.StableHlo
open Idealize.ShloMosaic.Pipeline (Dat Cfg Window)

open Cert.ReferenceIdeal.ReadP

variable (m : (ℓ : Loc nD τ sig) → Buf (Elt Ideal) ℓ) (ρ : Dev nD → PrngReg) (c : Dev nD)

/-- Grid 4's result: the rows entering it against the columns of the layer's weight matrix. -/
theorem w10_v64 : W10 m ρ c (Proc.devRef .tc main_v64) = val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  calc W10 m ρ c (Proc.devRef .tc main_v64)
      = (dat4 (V9 m ρ) c).arrAt 2 cfg4.N := W10_arr m ρ c 2
    _ = rowsByCols (M := 100000) (K := 128) (N := 128) (V9 m ρ c main_v63) (V9 m ρ c main_arg7) := Grid4.array_eq (V9 m ρ) c
    _ = rowsByCols (M := 100000) (K := 128) (N := 128) (val_main_v67 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg7)) := by
        rw [show V9 m ρ c main_v63 = _ from w9_v63 m ρ c, show V9 m ρ c main_arg7 = _ from (kept9 m ρ c).a7]
    _ = val_main_v68 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) := (Cert.ReferenceIdeal.Stages.stage_v68 _ _ _ _ _ _ _).symm

/-- The message passing after grid 4: the reference's own stage of the product just computed. -/
theorem w11_v77 : W11 m ρ c (Proc.devRef .tc main_v77) = val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  HostStretches.msg3_out (W10 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (w10_v64 m ρ c) (kept10 m ρ c).v3 (kept10 m ρ c).v6 (kept10 m ρ c).v31

/-- The layer's bias vector, re-laid as one row for the next grid. -/
theorem w11_v78 : W11 m ρ c (Proc.devRef .tc main_v78)
    = shapeCast S1x128 (m ((c : Thread nD τ).loc main_arg8)) shapeCasts_S128_S1x128 :=
  HostStretches.msg3_row (W10 m ρ c) (m ((c : Thread nD τ).loc main_arg8)) (kept10 m ρ c).a8

/-- Read back out of that row, the vector is the argument itself. -/
theorem row11 : Grid5.rowVec (V11 m ρ) c = m ((c : Thread nD τ).loc main_arg8) := by
  funext j
  obtain ⟨k, rfl⟩ : ∃ k : Fin 128, j = ix1 k := ⟨j 0, eq_ix1 j⟩
  show V11 m ρ c main_v78 (ix2 (0 : Fin 1) k) = _
  rw [show V11 m ρ c main_v78 = _ from w11_v78 m ρ c]
  exact Cert.LibHostRows.rowOfVec_cast_apply (m ((c : Thread nD τ).loc main_arg8)) shapeCasts_S128_S1x128 k

/-- Grid 5's result: the bias added to every row, then the rectifier. -/
theorem w12_v79 : W12 m ρ c (Proc.devRef .tc main_v79) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  calc W12 m ρ c (Proc.devRef .tc main_v79)
      = (dat5 (V11 m ρ) c).arrAt 2 cfg5.N := W12_arr m ρ c 2
    _ = addRowPos (M := 100000) (C := 128) (V11 m ρ c main_v77) (Grid5.rowVec (V11 m ρ) c) := Grid5.array_eq (V11 m ρ) c
    _ = addRowPos (M := 100000) (C := 128) (val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) := by
        rw [show V11 m ρ c main_v77 = _ from w11_v77 m ρ c, row11 m ρ c]
    _ = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := (Cert.ReferenceIdeal.Stages.stage_v85 _ _ _ _ _ _ _ _).symm
end Cert.KernelIdeal.Walk

end
-- ==== Proof.Grid6.lean ====
/-
  Grid 6: a 100000 × 128 array times a 128 × 10 matrix, twenty blocks of 5000 rows.

  Each grid point loads rows 5000·t … 5000·t + 4999 of the left array and the whole right matrix, multiplies them
  into a zero accumulator, and writes the product back as the same rows of the result.  An entry of a block's product
  depends only on its own row of the left array, so the blocks, put side by side, are the product of the whole arrays:
  entry (r, j) of the result is the sum over k of left[r,k] · right[k,j].  The narrowing of both operands to a
  sixteen-bit format before the product changes nothing at the exact values.
-/
import proofs.«103530_j24687472017556_1_alg».proof.Proof.Gen.KernelIdeal.Frame
import proofs.«103530_j24687472017556_1_alg».proof.Proof.LibMatmulRows
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Grid6

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## The product's dimension record: which coordinate of each operand is the output's, which the contracted one -/

theorem lhs_row (i : S5000x10.Idx) (q : dot_S5000x128_S128x10_S5000x10_1_0_0_1_n_n.contr.Idx) : (dot_S5000x128_S128x10_S5000x10_1_0_0_1_n_n.lhsIdx i q 0).val = (i 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
theorem lhs_k (i : S5000x10.Idx) (q : dot_S5000x128_S128x10_S5000x10_1_0_0_1_n_n.contr.Idx) : (dot_S5000x128_S128x10_S5000x10_1_0_0_1_n_n.lhsIdx i q 1).val = (q ⟨0, by decide⟩).val :=
  dot_S5000x128_S128x10_S5000x10_1_0_0_1_n_n.lhsIdx_val_of_single rfl i q
theorem rhs_k (i : S5000x10.Idx) (q : dot_S5000x128_S128x10_S5000x10_1_0_0_1_n_n.contr.Idx) : (dot_S5000x128_S128x10_S5000x10_1_0_0_1_n_n.rhsIdx i q 0).val = (q ⟨0, by decide⟩).val :=
  dot_S5000x128_S128x10_S5000x10_1_0_0_1_n_n.rhsIdx_val_of_single rfl i q
theorem rhs_col (i : S5000x10.Idx) (q : dot_S5000x128_S128x10_S5000x10_1_0_0_1_n_n.contr.Idx) : (dot_S5000x128_S128x10_S5000x10_1_0_0_1_n_n.rhsIdx i q 1).val = (i 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl

/-! ## One block -/

/-- What one grid point stores, at row `p` and column `q` of its block: row `p` of the loaded rows against column `q`
    of the loaded matrix. -/
theorem block_apply (x0 : Vec Ideal S5000x128 .f32) (x1 : Vec Ideal S128x10 .f32) (p : Fin 5000) (q : Fin 10) :
    k6_pay1 (F := Ideal) x0 x1 (ix2 p q) = ∑ k : Fin 128, x0 (ix2 p k) * x1 (ix2 k q) := by
  unfold k6_pay1
  rw [shapeCast_self]
  exact Cert.LibMatmulRows.matmul_zero_apply dot_S5000x128_S128x10_S5000x10_1_0_0_1_n_n rfl rfl lhs_row lhs_k rhs_k rhs_col none _ _ p q

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The block indices, decided over the twenty grid points: the left and the result windows sit at block row `t`,
    column block 0; the right window is always its one block. -/
theorem block_indices : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- What grid point `t` writes back is block `t` of the product of the two arrays as the grid finds them. -/
theorem flushed_eq (c : Dev nD) (t : Fin cfg6.N) :
    (dat6 V c).flushed 2 t = ((cfg6.win 2).blk t).view.read (Elt Ideal)
      (rowsByCols (M := 100000) (K := 128) (N := 10) (V c main_v79) (V c main_arg9)) := by
  show (cfg6.win 2).cut (grid6.coords t) ((dat6 V c).after 2 t) = _
  rw [after6_2]
  unfold out6_2
  rw [View.canon_unit_zero zero_off]
  simp only [View.ld_unit_zero (S := S5000x128) zero_off, View.ld_unit_zero (S := S128x10) zero_off]
  obtain ⟨e00, e01, e10, e11, e20, e21⟩ := block_indices t
  funext j
  obtain ⟨p, q, rfl⟩ : ∃ (p : Fin 5000) (q : Fin 10), j = ix2 p q := ⟨j 0, j 1, eq_ix2 j⟩
  show k6_pay1 (F := Ideal) (iblk6 V c 0 t) (iblk6 V c 1 t) (ix2 p q)
    = rowsByCols (M := 100000) (K := 128) (N := 10) (V c main_v79) (V c main_arg9) (((cfg6.win 2).blk t).view.emb (ix2 p q))
  rw [block_apply (iblk6 V c 0 t) (iblk6 V c 1 t) p q]
  unfold rowsByCols
  refine Finset.sum_congr rfl fun k _ => ?_
  have h0 : ((cfg6.win 0).blk t).view.emb (ix2 p k)
      = ix2 ((((cfg6.win 2).blk t).view.emb (ix2 p q)) 0) k := by
    funext a; apply Fin.ext
    match a with
    | ⟨0, _⟩ => show win6_0.index t (0 : Fin 2) * 5000 + 1 * p.val = win6_2.index t (0 : Fin 2) * 5000 + 1 * p.val; omega
    | ⟨1, _⟩ => show win6_0.index t (1 : Fin 2) * 128 + 1 * k.val = k.val; omega
  have h1 : ((cfg6.win 1).blk t).view.emb (ix2 k q)
      = ix2 k ((((cfg6.win 2).blk t).view.emb (ix2 p q)) 1) := by
    funext a; apply Fin.ext
    match a with
    | ⟨0, _⟩ => show win6_1.index t (0 : Fin 2) * 128 + 1 * k.val = k.val; omega
    | ⟨1, _⟩ => show win6_1.index t (1 : Fin 2) * 10 + 1 * q.val = win6_2.index t (1 : Fin 2) * 10 + 1 * q.val; omega
  have e0 : iblk6 V c 0 t (ix2 p k) = V c main_v79 (ix2 ((((cfg6.win 2).blk t).view.emb (ix2 p q)) 0) k) := congrArg (V c main_v79) h0
  have e1 : iblk6 V c 1 t (ix2 k q) = V c main_arg9 (ix2 k ((((cfg6.win 2).blk t).view.emb (ix2 p q)) 1)) := congrArg (V c main_arg9) h1
  rw [e0, e1]

/-- An index of the result is in point `t`'s block iff each coordinate lies in the block's range on its axis. -/
theorem mem_blk (t : Fin cfg6.N) (i : S100000x10.Idx) :
    i ∈ ((cfg6.win 2).blk t).view.set ↔ ∀ a : Fin 2, win6_2.index t a * S5000x10.size a ≤ (i a).val ∧ (i a).val < win6_2.index t a * S5000x10.size a + S5000x10.size a := by
  show i ∈ ((View.whole main_v80).slice (win6_2.rect t)).set ↔ _
  rw [View.set_slice_whole, Rect.mem_set_unit]
  exact Iff.rfl

/-- Row `r` of the result is written by grid point `r / 5000`: the twenty blocks cover the array. -/
theorem covered (i : S100000x10.Idx) :
    ∃ t : Fin cfg6.N, (cfg6.win 2).flush t = true ∧ i ∈ ((cfg6.win 2).blk t).view.set := by
  have hi0 : (i 0).val < 100000 := (i 0).isLt
  have hi1 : (i 1).val < 10 := (i 1).isLt
  have hN : cfg6.N = 20 := N_6
  obtain ⟨t, ht⟩ : ∃ t : Fin cfg6.N, t.val = (i 0).val / 5000 := ⟨⟨(i 0).val / 5000, by rw [hN]; omega⟩, rfl⟩
  obtain ⟨-, -, -, -, e20, e21⟩ := block_indices t
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 10 ≤ (i 1).val ∧ (i 1).val < win6_2.index t (1 : Fin 2) * 10 + 10; omega

/-- After the twenty grid points the result array is the product of the two arrays the grid was entered with. -/
theorem array_eq (c : Dev nD) :
    (dat6 V c).arrAt 2 cfg6.N = rowsByCols (M := 100000) (K := 128) (N := 10) (V c main_v79) (V c main_arg9) :=
  (dat6 V c).arrAt_eq_of_cover 2 _ (fun t _ => flushed_eq V c t) covered

end Cert.KernelIdeal.Grid6

end
-- ==== Proof.Grid7.lean ====
/-
  Grid 7: a length-10 vector added to every row of a 100000 × 10 array, twenty blocks of 5000 rows.

  Each grid point loads rows 5000·t … 5000·t + 4999 of the array and the vector (held as one row), adds the row to
  every loaded row and writes the rows back in place.  An entry of the result
  depends only on the same entry of the array and the vector's entry in its column, so the blocks put side by side
  are the whole-array operation: entry (r, j) is S[r,j] + b[j].
-/
import proofs.«103530_j24687472017556_1_alg».proof.Proof.Gen.KernelIdeal.Frame
import proofs.«103530_j24687472017556_1_alg».proof.Proof.DenseSpec
import Idealize.ShloMosaic.Lib.Pipeline.Value
import Idealize.ShloMosaic.Lib.ValueIdx
import Idealize.ShloMosaic.PureOps.Ideal.Laws

set_option maxRecDepth 16384

noncomputable section

namespace Cert.KernelIdeal.Grid7

open Cert.KernelIdeal Cert.KernelIdeal.Gen Cert.DenseSpec
open Idealize.ShloMosaic Idealize.ShloMosaic.TcCoe Idealize.ShloMosaic.ValueIdx Idealize.SL.Sem
open Idealize.ShloMosaic.Pipeline (Dat Cfg Window)

/-! ## One block -/

/-- What one grid point stores, at row `p` and column `q` of its block: the loaded entry plus the row's entry in
    column `q`. -/
theorem block_apply (x0 : Vec Ideal S5000x10 .f32) (x1 : Vec Ideal S1x10 .f32) (p : Fin 5000) (q : Fin 10) :
    k7_pay1 (F := Ideal) x0 x1 (ix2 p q) = x0 (ix2 p q) + x1 (ix2 (0 : Fin 1) q) := by
  unfold k7_pay1
  rw [shapeCast_self, shapeCast_self]
  show x0 (ix2 p q) + broadcastTo S5000x10 x1 broadcasts_S1x10_S5000x10 (ix2 p q) = _
  rw [broadcastTo_apply x1 broadcasts_S1x10_S5000x10 (ix2 p q) (ix2 (0 : Fin 1) q) (fun a => match a with
    | ⟨0, _⟩ => by show 0 = if (1 : Nat) = 1 then 0 else _; rw [if_pos rfl]
    | ⟨1, _⟩ => by show q.val = if (10 : Nat) = 1 then 0 else q.val; rw [if_neg (by decide)])]

/-! ## From blocks to the array -/

variable (V : (c : Dev nD) → (b : Ref sig .tc) → Buf (Elt Ideal) ((c : Thread nD τ).loc b))

theorem zero_off : (![0, 0] : Fin 2 → Nat) = fun _ => 0 := funext fun a => by fin_cases a <;> rfl

/-- The vector, read out of the one-row array the grid is given. -/
abbrev rowVec (c : Dev nD) : (⟨1, ![10]⟩ : Shape).Idx → Ideal .f32 := fun j => V c main_v94 (ix2 (0 : Fin 1) (j 0))

/-- The block indices, decided over the twenty grid points: the array and the result windows sit at block row `t`;
    the one-row window is always its one block. -/
theorem block_indices : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- What grid point `t` writes back is block `t` of the whole-array operation on the arrays as the grid finds them. -/
theorem flushed_eq (c : Dev nD) (t : Fin cfg7.N) :
    (dat7 V c).flushed 2 t = ((cfg7.win 2).blk t).view.read (Elt Ideal)
      (addRow (M := 100000) (C := 10) (V c main_v93) (rowVec V c)) := by
  show (cfg7.win 2).cut (grid7.coords t) ((dat7 V c).after 2 t) = _
  rw [after7_2]
  unfold out7_2
  rw [View.canon_unit_zero zero_off]
  simp only [View.ld_unit_zero (S := S5000x10) zero_off, View.ld_unit_zero (S := S1x10) zero_off]
  obtain ⟨e00, e01, e10, e11, e20, e21⟩ := block_indices t
  funext j
  obtain ⟨p, q, rfl⟩ : ∃ (p : Fin 5000) (q : Fin 10), j = ix2 p q := ⟨j 0, j 1, eq_ix2 j⟩
  show k7_pay1 (F := Ideal) (iblk7 V c 0 t) (iblk7 V c 1 t) (ix2 p q)
    = addRow (M := 100000) (C := 10) (V c main_v93) (rowVec V c) (((cfg7.win 2).blk t).view.emb (ix2 p q))
  rw [block_apply (iblk7 V c 0 t) (iblk7 V c 1 t) p q]
  unfold addRow
  have h0 : ((cfg7.win 0).blk t).view.emb (ix2 p q) = ((cfg7.win 2).blk t).view.emb (ix2 p q) := by
    funext a; apply Fin.ext
    match a with
    | ⟨0, _⟩ => show win7_0.index t (0 : Fin 2) * 5000 + 1 * p.val = win7_2.index t (0 : Fin 2) * 5000 + 1 * p.val; omega
    | ⟨1, _⟩ => show win7_0.index t (1 : Fin 2) * 10 + 1 * q.val = win7_2.index t (1 : Fin 2) * 10 + 1 * q.val; omega
  have h1 : ((cfg7.win 1).blk t).view.emb (ix2 (0 : Fin 1) q)
      = ix2 (0 : Fin 1) ((((cfg7.win 2).blk t).view.emb (ix2 p q)) 1) := by
    funext a; apply Fin.ext
    match a with
    | ⟨0, _⟩ => show win7_1.index t (0 : Fin 2) * 1 + 1 * 0 = 0; omega
    | ⟨1, _⟩ => show win7_1.index t (1 : Fin 2) * 10 + 1 * q.val = win7_2.index t (1 : Fin 2) * 10 + 1 * q.val; omega
  have e0 : iblk7 V c 0 t (ix2 p q) = V c main_v93 (((cfg7.win 2).blk t).view.emb (ix2 p q)) := congrArg (V c main_v93) h0
  have e1 : iblk7 V c 1 t (ix2 (0 : Fin 1) q) = rowVec V c (ix1 ((((cfg7.win 2).blk t).view.emb (ix2 p q)) 1)) := congrArg (V c main_v94) h1
  rw [e0, e1]

/-- An index of the result is in point `t`'s block iff each coordinate lies in the block's range on its axis. -/
theorem mem_blk (t : Fin cfg7.N) (i : S100000x10.Idx) :
    i ∈ ((cfg7.win 2).blk t).view.set ↔ ∀ a : Fin 2, win7_2.index t a * S5000x10.size a ≤ (i a).val ∧ (i a).val < win7_2.index t a * S5000x10.size a + S5000x10.size a := by
  show i ∈ ((View.whole main_v95).slice (win7_2.rect t)).set ↔ _
  rw [View.set_slice_whole, Rect.mem_set_unit]
  exact Iff.rfl

/-- Row `r` of the result is written by grid point `r / 5000`: the twenty blocks cover the array. -/
theorem covered (i : S100000x10.Idx) :
    ∃ t : Fin cfg7.N, (cfg7.win 2).flush t = true ∧ i ∈ ((cfg7.win 2).blk t).view.set := by
  have hi0 : (i 0).val < 100000 := (i 0).isLt
  have hi1 : (i 1).val < 10 := (i 1).isLt
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, e20, e21⟩ := block_indices t
  refine ⟨t, flush7_2 t, ?_⟩
  rw [mem_blk]
  intro a
  match a with
  | ⟨0, _⟩ => show win7_2.index t (0 : Fin 2) * 5000 ≤ (i 0).val ∧ (i 0).val < win7_2.index t (0 : Fin 2) * 5000 + 5000; omega
  | ⟨1, _⟩ => show win7_2.index t (1 : Fin 2) * 10 ≤ (i 1).val ∧ (i 1).val < win7_2.index t (1 : Fin 2) * 10 + 10; omega

/-- After the twenty grid points the result array is the whole-array operation on what the grid was entered with. -/
theorem array_eq (c : Dev nD) :
    (dat7 V c).arrAt 2 cfg7.N = addRow (M := 100000) (C := 10) (V c main_v93) (rowVec V c) :=
  (dat7 V c).arrAt_eq_of_cover 2 _ (fun t _ => flushed_eq V c t) covered

end Cert.KernelIdeal.Grid7

end
-- ==== Proof.Walk4.lean ====
/-
  The fourth layer along the idealized kernel's boundaries: the product grid, the message passing on the host, the
  bias grid.  At each boundary the layer's live array is the reference's stage of the same name, as a function of the
  launched arguments.
-/
import proofs.«103530_j24687472017556_1_alg».proof.Proof.Walk3
import proofs.«103530_j24687472017556_1_alg».proof.Proof.Grid6
import proofs.«103530_j24687472017556_1_alg».proof.Proof.Grid7

set_option maxRecDepth 16384

noncomputable section

namespace Cert.KernelIdeal.Walk

open Cert.KernelIdeal Cert.KernelIdeal.Gen Cert.DenseSpec
open Idealize.ShloMosaic Idealize.ShloMosaic.TcCoe Idealize.ShloMosaic.ValueIdx Idealize.SL.Sem Idealize.ShloMosaic.StableHlo
open Idealize.ShloMosaic.Pipeline (Dat Cfg Window)

open Cert.ReferenceIdeal.ReadP

variable (m : (ℓ : Loc nD τ sig) → Buf (Elt Ideal) ℓ) (ρ : Dev nD → PrngReg) (c : Dev nD)

/-- Grid 6's result: the rows entering it against the columns of the layer's weight matrix. -/
theorem w13_v80 : W13 m ρ c (Proc.devRef .tc main_v80) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  calc W13 m ρ c (Proc.devRef .tc main_v80)
      = (dat6 (V12 m ρ) c).arrAt 2 cfg6.N := W13_arr m ρ c 2
    _ = rowsByCols (M := 100000) (K := 128) (N := 10) (V12 m ρ c main_v79) (V12 m ρ c main_arg9) := Grid6.array_eq (V12 m ρ) c
    _ = rowsByCols (M := 100000) (K := 128) (N := 10) (val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) := by
        rw [show V12 m ρ c main_v79 = _ from w12_v79 m ρ c, show V12 m ρ c main_arg9 = _ from (kept12 m ρ c).a9]
    _ = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := (Cert.ReferenceIdeal.Stages.stage_v86 _ _ _ _ _ _ _ _ _).symm

/-- The message passing after grid 6: the reference's own stage of the product just computed. -/
theorem w14_v93 : W14 m ρ c (Proc.devRef .tc main_v93) = val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  HostStretches.msg4_out (W13 m ρ c) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (w13_v80 m ρ c) (kept13 m ρ c).v3 (kept13 m ρ c).v6 (kept13 m ρ c).v31

/-- The layer's bias vector, re-laid as one row for the next grid. -/
theorem w14_v94 : W14 m ρ c (Proc.devRef .tc main_v94)
    = shapeCast S1x10 (m ((c : Thread nD τ).loc main_arg10)) shapeCasts_S10_S1x10 :=
  HostStretches.msg4_row (W13 m ρ c) (m ((c : Thread nD τ).loc main_arg10)) (kept13 m ρ c).a10

/-- Read back out of that row, the vector is the argument itself. -/
theorem row14 : Grid7.rowVec (V14 m ρ) c = m ((c : Thread nD τ).loc main_arg10) := by
  funext j
  obtain ⟨k, rfl⟩ : ∃ k : Fin 10, j = ix1 k := ⟨j 0, eq_ix1 j⟩
  show V14 m ρ c main_v94 (ix2 (0 : Fin 1) k) = _
  rw [show V14 m ρ c main_v94 = _ from w14_v94 m ρ c]
  exact Cert.LibHostRows.rowOfVec_cast_apply (m ((c : Thread nD τ).loc main_arg10)) shapeCasts_S10_S1x10 k

/-- Grid 7's result: the bias added to every row. -/
theorem w15_v95 : W15 m ρ c (Proc.devRef .tc main_v95) = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  calc W15 m ρ c (Proc.devRef .tc main_v95)
      = (dat7 (V14 m ρ) c).arrAt 2 cfg7.N := W15_arr m ρ c 2
    _ = addRow (M := 100000) (C := 10) (V14 m ρ c main_v93) (Grid7.rowVec (V14 m ρ) c) := Grid7.array_eq (V14 m ρ) c
    _ = addRow (M := 100000) (C := 10) (val_main_v99 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) := by
        rw [show V14 m ρ c main_v93 = _ from w14_v93 m ρ c, row14 m ρ c]
    _ = val_main_v102 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := (Cert.ReferenceIdeal.Stages.stage_v102 _ _ _ _ _ _ _ _ _ _).symm

/-- The pooling after the last grid: the reference's own last stages of the fourth layer's result. -/
theorem w16_v106 : W16 m ρ c (Proc.devRef .tc main_v106) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  HostStretches.pool_out (W15 m ρ c) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (w15_v95 m ρ c) (kept15 m ρ c).a2

end Cert.KernelIdeal.Walk

end
-- ==== Proof.lean ====
/-
  A four-layer graph convolution with mean pooling, computed two ways.

  Both programs build, from the edge list, the source and target index of every edge and self-loop and the symmetric
  normalisation deg^(-1/2)(source) · deg^(-1/2)(target); then four times: multiply the node features by the layer's
  weight matrix, let every edge carry its source row scaled by its normalisation into its target row (a gather, a product,
  a scatter-add), add the layer's bias to every row and, in the first three layers, take the maximum with zero; finally
  sum the rows of each graph and divide by the graph's node count, at least one.

  The reference does all of it with whole-array operations.  The kernel does the two dense steps of every layer — the
  product with the weight matrix and the bias with the rectifier — in grids of twenty blocks of 5000 rows, and everything
  else with the same whole-array operations as the reference.  At the exact values:
    * a block's product is its rows against the matrix's columns, so the twenty blocks side by side are the product of the
      whole arrays, the reference's `dot_general` (narrowing the operands to sixteen bits first is the identity);
    * a block's bias step touches each entry alone, so the blocks side by side are the reference's spread-and-add, then
      its maximum with zero;
    * every other operation is literally the same on both sides, applied to equal arrays.
  No law of arithmetic beyond these readings is used: no sum is reordered, nothing is distributed or cancelled, so the
  inputs' finiteness is never needed.  The idealization rewrote nothing, so what it must preserve is nothing.
-/
import proofs.«103530_j24687472017556_1_alg».proof.Defs
import proofs.«103530_j24687472017556_1_alg».proof.Proof.Gen.Kernel
import proofs.«103530_j24687472017556_1_alg».proof.Proof.Gen.Kernel.Frame
import proofs.«103530_j24687472017556_1_alg».proof.Proof.Gen.KernelIdeal
import proofs.«103530_j24687472017556_1_alg».proof.Proof.Gen.KernelIdeal.Frame
import proofs.«103530_j24687472017556_1_alg».proof.Proof.Gen.ReferenceIdeal
import proofs.«103530_j24687472017556_1_alg».proof.Proof.Gen.Pre_finite_inputs
import proofs.«103530_j24687472017556_1_alg».proof.Proof.RefRunP
import proofs.«103530_j24687472017556_1_alg».proof.Proof.RefReadP
import proofs.«103530_j24687472017556_1_alg».proof.Proof.RunValue
import proofs.«103530_j24687472017556_1_alg».proof.Proof.Walk4
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel (hKernel := Cert.Kernel.Gen.facts) (hPre_finite_inputs := Cert.Pre_finite_inputs.Gen.facts) :=
  fun m ρ _ => Cert.Kernel.Gen.frame m ρ

/-- So does the kernel read at the exact values. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference is a line of host operations: its run, with the result forgotten. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the pooled fourth-layer activations, the reference's last stage of the launched arguments:
    the kernel by the walk along its sixteen boundaries, the reference by its own run, the two memories agreeing on the
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v113 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    (θ_run Cert.KernelIdeal.defs _ _).mono (fun r h c => ⟨(h c).1.trans (Cert.KernelIdeal.Walk.w16_v106 m ρ c), (h c).2⟩)
      (Cert.KernelIdeal.RunValue.run (F := Ideal) m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9, h10⟩ := hagree c
  rw [Cert.ReferenceIdeal.ReadP.val_main_v113_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
